-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S32x32 : Shape := ⟨2, ![32, 32]⟩
abbrev S32 : Shape := ⟨1, ![32]⟩
abbrev S32x16 : Shape := ⟨2, ![32, 16]⟩
abbrev S16 : Shape := ⟨1, ![16]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S16 .f32) (main_v13 : IVec S_ 1) (main_v16 : IVec S32x16 1) : IVec S_ 1 :=
  let main_c_5 : IVec S_ 1 := constantI S_ 1 1#1
  let main_v17 : IVec S_ 1 := (fun x v => Host.reduce IntOp.andi x v reducesTo_S32x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S100000x32 .f32) (main_arg1 : IVec S2x1600000 32) (main_arg2 : FVec F S32x32 .f32) (main_arg3 : FVec F S32 .f32) (main_arg4 : FVec F S32x16 .f32) (main_arg5 : FVec F S16 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S32x32 .f32 := Host.absf main_arg2
  let main_cst_0 : FVec F S_ .f32 := constant S_ .f32 0x7F800000#32
  let main_v5 : FVec F S32x32 .f32 := broadcastInDim S32x32 ![] bcast_S_S32x32 main_cst_0
  let main_v6 : IVec S32x32 1 := cmpf .olt main_v4 main_v5
  let main_c_1 : IVec S_ 1 := constantI S_ 1 1#1
  let main_v7 : IVec S_ 1 := (fun x v => Host.reduce IntOp.andi x v reducesTo_S32x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x16 .f32 := Host.absf main_arg4
  let main_cst_4 : FVec F S_ .f32 := constant S_ .f32 0x7F800000#32
  let main_v15 : FVec F S32x16 .f32 := broadcastInDim S32x16 ![] bcast_S_S32x16 main_cst_4
  let main_v16 : IVec S32x16 1 := cmpf .olt main_v14 main_v15
  fn_part1 (F := F) main_arg5 main_v13 main_v16
-- ==== Kernel.lean ====
abbrev S100000x32 : Shape := ⟨2, ![100000, 32]⟩
abbrev S2x1600000 : Shape := ⟨2, ![2, 1600000]⟩
abbrev S32x32 : Shape := ⟨2, ![32, 32]⟩
abbrev S32 : Shape := ⟨1, ![32]⟩
abbrev S32x16 : Shape := ⟨2, ![32, 16]⟩
abbrev S16 : Shape := ⟨1, ![16]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S10000x32 : Shape := ⟨2, ![10000, 32]⟩
abbrev S1700000x32 : Shape := ⟨2, ![1700000, 32]⟩
abbrev S1x32 : Shape := ⟨2, ![1, 32]⟩
abbrev S100000x16 : Shape := ⟨2, ![100000, 16]⟩
abbrev S10000x16 : Shape := ⟨2, ![10000, 16]⟩
abbrev S1700000x16 : Shape := ⟨2, ![1700000, 16]⟩
abbrev S1x16 : Shape := ⟨2, ![1, 16]⟩

abbrev nBuf : Space → Nat
  | .hbm => 87
  | .vmem => 11
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S32x32, .f32⟩
  | .hbm, ⟨3, _⟩ => ⟨S32, .f32⟩
  | .hbm, ⟨4, _⟩ => ⟨S32x16, .f32⟩
  | .hbm, ⟨5, _⟩ => ⟨S16, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x32, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x32, .f32⟩
  | .hbm, ⟨59, _⟩ => ⟨S1700000x1, .f32⟩
  | .hbm, ⟨60, _⟩ => ⟨S1700000x32, .f32⟩
  | .hbm, ⟨61, _⟩ => ⟨S1700000x32, .f32⟩
  | .hbm, ⟨62, _⟩ => ⟨S_, .f32⟩
  | .hbm, ⟨63, _⟩ => ⟨S100000x32, .f32⟩
  | .hbm, ⟨64, _⟩ => ⟨S1700000x1, .i32⟩
  | .hbm, ⟨65, _⟩ => ⟨S100000x32, .f32⟩
  | .hbm, ⟨66, _⟩ => ⟨S1x32, .f32⟩
  | .hbm, ⟨67, _⟩ => ⟨S100000x16, .f32⟩
  | .hbm, ⟨68, _⟩ => ⟨S_, .i32⟩
  | .hbm, ⟨69, _⟩ => ⟨S1700000, .i32⟩
  | .hbm, ⟨70, _⟩ => ⟨S1700000, .i1⟩
  | .hbm, ⟨71, _⟩ => ⟨S_, .i32⟩
  | .hbm, ⟨72, _⟩ => ⟨S1700000, .i32⟩
  | .hbm, ⟨73, _⟩ => ⟨S1700000, .i32⟩
  | .hbm, ⟨74, _⟩ => ⟨S1700000, .i32⟩
  | .hbm, ⟨75, _⟩ => ⟨S1700000x1, .i32⟩
  | .hbm, ⟨76, _⟩ => ⟨S1700000x16, .f32⟩
  | .hbm, ⟨77, _⟩ => ⟨S1700000x1, .f32⟩
  | .hbm, ⟨78, _⟩ => ⟨S1700000x16, .f32⟩
  | .hbm, ⟨79, _⟩ => ⟨S1700000x16, .f32⟩
  | .hbm, ⟨80, _⟩ => ⟨S_, .f32⟩
  | .hbm, ⟨81, _⟩ => ⟨S100000x16, .f32⟩
  | .hbm, ⟨82, _⟩ => ⟨S1700000x1, .i32⟩
  | .hbm, ⟨83, _⟩ => ⟨S100000x16, .f32⟩
  | .hbm, ⟨84, _⟩ => ⟨S1x16, .f32⟩
  | .hbm, ⟨85, _⟩ => ⟨S100000x16, .f32⟩
  | .hbm, ⟨86, _⟩ => ⟨S100000x16, .f32⟩
  | .local _ .vmem, ⟨0, _⟩ => ⟨S10000x32, .f32⟩
  | .local _ .vmem, ⟨1, _⟩ => ⟨S10000x32, .f32⟩
  | .local _ .vmem, ⟨2, _⟩ => ⟨S32x32, .f32⟩
  | .local _ .vmem, ⟨3, _⟩ => ⟨S10000x32, .f32⟩
  | .local _ .vmem, ⟨4, _⟩ => ⟨S10000x32, .f32⟩
  | .local _ .vmem, ⟨5, _⟩ => ⟨S10000x32, .f32⟩
  | .local _ .vmem, ⟨6, _⟩ => ⟨S10000x32, .f32⟩
  | .local _ .vmem, ⟨7, _⟩ => ⟨S1x32, .f32⟩
  | .local _ .vmem, ⟨8, _⟩ => ⟨S32x16, .f32⟩
  | .local _ .vmem, ⟨9, _⟩ => ⟨S10000x16, .f32⟩
  | .local _ .vmem, ⟨10, _⟩ => ⟨S10000x16, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_c_11 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_12 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x32_S10000x32_0_0 : ∀ a, (![0, 0] : Fin 2 → Nat) a + S10000x32.size a ≤ S10000x32.size a
  h_S10000x32 : 0 < S10000x32.numel
  bitsLt_bf16_f32 : FTy.bits .bf16 < FTy.bits .f32
  inb_S32x32_S32x32_0_0 : ∀ a, (![0, 0] : Fin 2 → Nat) a + S32x32.size a ≤ S32x32.size a
  h_S32x32 : 0 < S32x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  shapeCasts_S32_S1x32 : S32.ShapeCasts S1x32
  shapeCasts_S10000x32_S10000x32 : S10000x32.ShapeCasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S32x16_S32x16_0_0 : ∀ a, (![0, 0] : Fin 2 → Nat) a + S32x16.size a ≤ S32x16.size a
  h_S32x16 : 0 < S32x16.numel
  inb_S10000x16_S10000x16_0_0 : ∀ a, (![0, 0] : Fin 2 → Nat) a + S10000x16.size a ≤ S10000x16.size a
  h_S10000x16 : 0 < S10000x16.numel
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x32_S32x32_S10000x32_1_0_0_1_n_n_wf : DotDims.WF S10000x32 S32x32 S10000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S10000x32_S32x16_S10000x16_1_0_0_1_n_n_wf : DotDims.WF S10000x32 S32x16 S10000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x32.size a ≤ S100000x32.size a
  hwx0_0 : ∀ i : grid0.Coords, EltTy.bits .f32 = 32 ∨ (Rect.block (s := S100000x32) S10000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x32.size a ≤ S32x32.size a
  hwx0_1 : ∀ i : grid0.Coords, EltTy.bits .f32 = 32 ∨ (Rect.block (s := S32x32) S32x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x32.size a ≤ S100000x32.size a
  hwx0_2 : ∀ i : grid0.Coords, EltTy.bits .f32 = 32 ∨ (Rect.block (s := S100000x32) S10000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x16.size a ≤ S32x16.size a
  hwx1_2 : ∀ i : grid1.Coords, EltTy.bits .f32 = 32 ∨ (Rect.block (s := S32x16) S32x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x16.size a ≤ S100000x16.size a
  hwx1_3 : ∀ i : grid1.Coords, EltTy.bits .f32 = 32 ∨ (Rect.block (s := S100000x16) S10000x16.size (cc1_transform_3 i) (hinb1_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S10000x32_S32x16_S10000x16_1_0_0_1_n_n : DotDims S10000x32 S32x16 S10000x16 where
  lhsContracting := [1]
  rhsContracting := [0]
  lhsNonContracting := [0]
  rhsNonContracting := [1]
  lhsBatch := []
  rhsBatch := []
  wf := dot_S10000x32_S32x16_S10000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

abbrev win0_0 : Pipeline.Window sig grid0 :=
  Pipeline.Window.ofSpec (Memref.whole main_arg0) S10000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S32x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S32x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S10000x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S32x32 : Shape := ⟨2, ![32, 32]⟩
abbrev S32 : Shape := ⟨1, ![32]⟩
abbrev S32x16 : Shape := ⟨2, ![32, 16]⟩
abbrev S16 : Shape := ⟨1, ![16]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x32 : Shape := ⟨2, ![1700000, 32]⟩
abbrev S1x32 : Shape := ⟨2, ![1, 32]⟩
abbrev S100000x16 : Shape := ⟨2, ![100000, 16]⟩
abbrev S1700000x16 : Shape := ⟨2, ![1700000, 16]⟩
abbrev S1x16 : Shape := ⟨2, ![1, 16]⟩

abbrev nBuf : Space → Nat
  | .hbm => 111
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S32x32, .f32⟩
  | .hbm, ⟨3, _⟩ => ⟨S32, .f32⟩
  | .hbm, ⟨4, _⟩ => ⟨S32x16, .f32⟩
  | .hbm, ⟨5, _⟩ => ⟨S16, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x32, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x32, .f32⟩
  | .hbm, ⟨59, _⟩ => ⟨S1700000x1, .f32⟩
  | .hbm, ⟨60, _⟩ => ⟨S1700000x32, .f32⟩
  | .hbm, ⟨61, _⟩ => ⟨S1700000x32, .f32⟩
  | .hbm, ⟨62, _⟩ => ⟨S_, .f32⟩
  | .hbm, ⟨63, _⟩ => ⟨S100000x32, .f32⟩
  | .hbm, ⟨64, _⟩ => ⟨S1700000x1, .i32⟩
  | .hbm, ⟨65, _⟩ => ⟨S100000x32, .f32⟩
  | .hbm, ⟨66, _⟩ => ⟨S1x32, .f32⟩
  | .hbm, ⟨67, _⟩ => ⟨S100000x32, .f32⟩
  | .hbm, ⟨68, _⟩ => ⟨S100000x32, .f32⟩
  | .hbm, ⟨69, _⟩ => ⟨S_, .f32⟩
  | .hbm, ⟨70, _⟩ => ⟨S100000x32, .f32⟩
  | .hbm, ⟨71, _⟩ => ⟨S100000x32, .f32⟩
  | .hbm, ⟨72, _⟩ => ⟨S100000x16, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000, .f32⟩
  | .hbm, ⟨82, _⟩ => ⟨S_, .i32⟩
  | .hbm, ⟨83, _⟩ => ⟨S1700000, .i32⟩
  | .hbm, ⟨84, _⟩ => ⟨S1700000, .i1⟩
  | .hbm, ⟨85, _⟩ => ⟨S_, .i32⟩
  | .hbm, ⟨86, _⟩ => ⟨S1700000, .i32⟩
  | .hbm, ⟨87, _⟩ => ⟨S1700000, .i32⟩
  | .hbm, ⟨88, _⟩ => ⟨S1700000, .i32⟩
  | .hbm, ⟨89, _⟩ => ⟨S1700000x1, .i32⟩
  | .hbm, ⟨90, _⟩ => ⟨S1700000, .f32⟩
  | .hbm, ⟨91, _⟩ => ⟨S1700000, .f32⟩
  | .hbm, ⟨92, _⟩ => ⟨S_, .i32⟩
  | .hbm, ⟨93, _⟩ => ⟨S1700000, .i32⟩
  | .hbm, ⟨94, _⟩ => ⟨S1700000, .i1⟩
  | .hbm, ⟨95, _⟩ => ⟨S_, .i32⟩
  | .hbm, ⟨96, _⟩ => ⟨S1700000, .i32⟩
  | .hbm, ⟨97, _⟩ => ⟨S1700000, .i32⟩
  | .hbm, ⟨98, _⟩ => ⟨S1700000, .i32⟩
  | .hbm, ⟨99, _⟩ => ⟨S1700000x1, .i32⟩
  | .hbm, ⟨100, _⟩ => ⟨S1700000x16, .f32⟩
  | .hbm, ⟨101, _⟩ => ⟨S1700000x1, .f32⟩
  | .hbm, ⟨102, _⟩ => ⟨S1700000x16, .f32⟩
  | .hbm, ⟨103, _⟩ => ⟨S1700000x16, .f32⟩
  | .hbm, ⟨104, _⟩ => ⟨S_, .f32⟩
  | .hbm, ⟨105, _⟩ => ⟨S100000x16, .f32⟩
  | .hbm, ⟨106, _⟩ => ⟨S1700000x1, .i32⟩
  | .hbm, ⟨107, _⟩ => ⟨S100000x16, .f32⟩
  | .hbm, ⟨108, _⟩ => ⟨S1x16, .f32⟩
  | .hbm, ⟨109, _⟩ => ⟨S100000x16, .f32⟩
  | .hbm, ⟨110, _⟩ => ⟨S100000x16, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c_12 : Ref sig .tc := ⟨.hbm, 82, rfl⟩
abbrev main_v58 : Ref sig .tc := ⟨.hbm, 83, rfl⟩
abbrev main_v59 : Ref sig .tc := ⟨.hbm, 84, rfl⟩
abbrev main_c_13 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_c_15 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_16 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  scatter_S100000_S1700000x1_S1700000_n_0_0_1_wf : ScatterDims.WF S100000 S1700000x1 S1700000 [] [0] [0] 1
  dot_S100000x32_S32x32_S100000x32_1_0_0_1_n_n_wf : DotDims.WF S100000x32 S32x32 S100000x32 [1] [0] [0] [1] [] []
  gather_S100000_S1700000x1_S1700000_n_0_n_n_0_1_1_wf : GatherDims.WF S100000 S1700000x1 S1700000 [] [0] [] [0] [] 1 ![1]
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S100000x32_S32x16_S100000x16_1_0_0_1_n_n_wf : DotDims.WF S100000x32 S32x16 S100000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

class Facts : Prop extends Facts₀ where

variable [Facts]
-- ==== Proof.KernelRun.lean ====
/-
  The idealized kernel's run with its RESULT named.

  @main of the kernel is seven segments: three stretches of host operations (edge preparation: endpoints with
  self-loops, degrees, the symmetric normalisation coefficient), the first matrix product as a region of ten
  row blocks, a host stretch (gather, scale, scatter-add), the second region (bias, relu, matrix product), and
  a last host stretch (gather, scale, scatter-add, bias). The buffer contents at the segment boundaries are the
  fold `W0 … W7`. Every weakly fair execution terminates, and every unscoped buffer ends at `W7`'s contents:
  here that is read at the result buffer as well as at the six argument buffers.
-/
import proofs.«128285_j37847251813253_2_alg».proof.Proof.Gen.KernelIdeal.Frame

set_option maxRecDepth 16384

noncomputable section

namespace Cert.KernelIdeal.GcnRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel's @main terminates without a fault; the result buffer ends at the last
    boundary's contents `W7`, and the six argument arrays end as launched. -/
theorem run : θ_run defs (onTc (τ := τ) (main (F := F))) ⟨m, fun _ => 0, ρ⟩ (fun r => ∀ c : Dev nD,
      r.2.mem ((c.tc : Thread nD τ).loc main_v63) = W7 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v63 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.GcnRun

end
-- ==== Proof.GcnSpec.lean ====
/-
  The two-layer graph convolution as ONE function of the six argument arrays.

  Nodes 0 … 99999, 1600000 edges given as two rows of endpoints, one self-loop added per node: 1700000 edges.
  `src e`, `dst e` are edge e's endpoints (a negative endpoint is read 100000 higher, as array indexing does).
  The degree of node v counts the edges with destination v; `isd v` is 1/√(max(deg v, 1)) where deg v > 0 and 0
  elsewhere; the coefficient of edge e is isd(src e) · isd(dst e). One layer sends a table h : [100000, C] to

      agg h (v, j) = Σ_{e : dst e = v} h (src e, j) · coef e.

  The network is   agg16 (relu (agg32 (x · W1) + b1) · W2) + b2.

  Every stage below is the host operation both programs print for it, over the literal shapes, so the two runs meet
  at these terms without opening a gather or a scatter-add.
-/
import proofs.«128285_j37847251813253_2_alg».proof.Proof.Gen.ReferenceIdeal

noncomputable section

namespace Cert.Gcn

open Idealize.ShloMosaic Cert.ReferenceIdeal Cert.ReferenceIdeal.Gen

variable {F : FTy → Type} [FloatOps F]

/-- Row `r` of the edge list followed by the self-loops 0, 1, …, 99999: the endpoints on one side of all 1700000 edges. -/
def srcIdx (ei : IVec S2x1600000 32) : IVec S1700000 32 :=
  concatenate S1700000 0 [⟨S1600000, shapeCast S1600000 (extractStridedSlice S1x1600000 ![0, 0] ei slices_S2x1600000_S1x1600000_0_0) shapeCasts_S1x1600000_S1600000⟩, ⟨S100000, iotaInDim S100000 32 0⟩] concatenates_S1600000_S100000_S1700000_d0

def dstIdx (ei : IVec S2x1600000 32) : IVec S1700000 32 :=
  concatenate S1700000 0 [⟨S1600000, shapeCast S1600000 (extractStridedSlice S1x1600000 ![1, 0] ei slices_S2x1600000_S1x1600000_1_0) shapeCasts_S1x1600000_S1600000⟩, ⟨S100000, iotaInDim S100000 32 0⟩] concatenates_S1600000_S100000_S1700000_d0

/-- A negative endpoint counts from the end: s < 0 is read as s + 100000. -/
def wrapIdx (s : IVec S1700000 32) : IVec S1700000 32 :=
  select (cmpi .slt s (broadcastInDim S1700000 ![] bcast_S_S1700000 (constantI S_ 32 0#32)))
    (addi s (broadcastInDim S1700000 ![] bcast_S_S1700000 (constantI S_ 32 100000#32))) s

/-- The index column [1700000, 1] a gather or scatter takes. -/
def col (s : IVec S1700000 32) : IVec S1700000x1 32 := broadcastInDim S1700000x1 ![0] bcast_S1700000_S1700000x1_0 s

/-- deg v: one unit added at the destination of every edge. -/
def degree (dst : IVec S1700000 32) : FVec F S100000 .f32 :=
  Host.scatterAdd scatter_S100000_S1700000x1_S1700000_n_0_0_1 (broadcastInDim S100000 ![] bcast_S_S100000 (constant S_ .f32 0x00000000#32))
    (col dst) (broadcastInDim S1700000 ![] bcast_S_S1700000 (constant S_ .f32 0x3F800000#32))

/-- isd v = 1/√(max(deg v, 1)) where deg v > 0, and 0 elsewhere. -/
def invSqrtDeg (dst : IVec S1700000 32) : FVec F S100000 .f32 :=
  select (cmpf .ogt (degree (F := F) dst) (broadcastInDim S100000 ![] bcast_S_S100000 (constant S_ .f32 0x00000000#32)))
    (Host.rsqrt (maximumf (degree (F := F) dst) (broadcastInDim S100000 ![] bcast_S_S100000 (constant S_ .f32 0x3F800000#32))))
    (broadcastInDim S100000 ![] bcast_S_S100000 (id (constant S_ .f32 0x00000000#32)))

/-- The coefficient of each edge from a table `d` on the nodes: d(src e) · d(dst e). -/
def coefOf (d : FVec F S100000 .f32) (src dst : IVec S1700000 32) : FVec F S1700000 .f32 :=
  mulf (Host.gather gather_S100000_S1700000x1_S1700000_n_0_n_n_0_1_1 d (col (wrapIdx src)))
    (Host.gather gather_S100000_S1700000x1_S1700000_n_0_n_n_0_1_1 d (col (wrapIdx dst)))

/-- One aggregation of a 32-column table: gather the source rows, scale each by its edge's coefficient, add into the
    destination rows of a zero table. -/
def aggregate32 (src dst : IVec S1700000 32) (cf : FVec F S1700000 .f32) (h : FVec F S100000x32 .f32) : FVec F S100000x32 .f32 :=
  Host.scatterAdd scatter_S100000x32_S1700000x1_S1700000x32_1_0_0_1 (broadcastInDim S100000x32 ![] bcast_S_S100000x32 (constant S_ .f32 0x00000000#32))
    (col dst)
    (mulf (Host.gather gather_S100000x32_S1700000x1_S1700000x32_1_0_n_n_0_1_132 h (col (wrapIdx src)))
      (broadcastInDim S1700000x32 ![0, 1] bcast_S1700000x1_S1700000x32_0_1 (broadcastInDim S1700000x1 ![0] bcast_S1700000_S1700000x1_0 cf)))

/-- The same for a 16-column table. -/
def aggregate16 (src dst : IVec S1700000 32) (cf : FVec F S1700000 .f32) (h : FVec F S100000x16 .f32) : FVec F S100000x16 .f32 :=
  Host.scatterAdd scatter_S100000x16_S1700000x1_S1700000x16_1_0_0_1 (broadcastInDim S100000x16 ![] bcast_S_S100000x16 (constant S_ .f32 0x00000000#32))
    (col dst)
    (mulf (Host.gather gather_S100000x16_S1700000x1_S1700000x16_1_0_n_n_0_1_116 h (col (wrapIdx src)))
      (broadcastInDim S1700000x16 ![0, 1] bcast_S1700000x1_S1700000x16_0_1 (broadcastInDim S1700000x1 ![0] bcast_S1700000_S1700000x1_0 cf)))

/-- x · W1 : [100000, 32]. -/
def linear1 (x : FVec F S100000x32 .f32) (w : FVec F S32x32 .f32) : FVec F S100000x32 .f32 :=
  Host.dotGeneral dot_S100000x32_S32x32_S100000x32_1_0_0_1_n_n none x w

/-- relu (a + row): a [1, 32] row added to every row of the table, then the maximum with 0. -/
def biasReluRow (a : FVec F S100000x32 .f32) (row : FVec F S1x32 .f32) : FVec F S100000x32 .f32 :=
  maximumf (addf a (broadcastInDim S100000x32 ![0, 1] bcast_S1x32_S100000x32_0_1 row))
    (broadcastInDim S100000x32 ![] bcast_S_S100000x32 (constant S_ .f32 0x00000000#32))

/-- relu (a + b1): the bias laid out as a row, added along the rows, the maximum with 0. -/
def biasRelu (a : FVec F S100000x32 .f32) (b : FVec F S32 .f32) : FVec F S100000x32 .f32 :=
  biasReluRow a (broadcastInDim S1x32 ![1] bcast_S32_S1x32_1 b)

/-- a · W2 : [100000, 16]. -/
def linear2 (a : FVec F S100000x32 .f32) (w : FVec F S32x16 .f32) : FVec F S100000x16 .f32 :=
  Host.dotGeneral dot_S100000x32_S32x16_S100000x16_1_0_0_1_n_n none a w

/-- The output bias added along the rows. -/
def addBias16 (a : FVec F S100000x16 .f32) (b : FVec F S16 .f32) : FVec F S100000x16 .f32 :=
  addf a (broadcastInDim S100000x16 ![0, 1] bcast_S1x16_S100000x16_0_1 (broadcastInDim S1x16 ![1] bcast_S16_S1x16_1 b))

/-- The network: two aggregations around a bias and a relu, the linear maps applied before each aggregation. -/
def gcn (x : FVec F S100000x32 .f32) (ei : IVec S2x1600000 32) (w1 : FVec F S32x32 .f32) (b1 : FVec F S32 .f32)
    (w2 : FVec F S32x16 .f32) (b2 : FVec F S16 .f32) : FVec F S100000x16 .f32 :=
  addBias16
    (aggregate16 (srcIdx ei) (dstIdx ei) (coefOf (invSqrtDeg (F := F) (dstIdx ei)) (srcIdx ei) (dstIdx ei))
      (linear2 (biasRelu (aggregate32 (srcIdx ei) (dstIdx ei) (coefOf (invSqrtDeg (F := F) (dstIdx ei)) (srcIdx ei) (dstIdx ei)) (linear1 x w1)) b1) w2))
    b2

end Cert.Gcn

end
-- ==== Proof.LibProductAt.lean ====
/-
  A matrix product read at an index.

  Dimension numbers of a product [A, K] × [K, B] → [A, B] that contract the left factor's axis 1 with the right factor's
  axis 0, with no batch axis, index the two factors at the result index (p, q) and the contraction index k by (p, k) and
  (k, q). So any sum over the contraction index — a product into a zero accumulator, a host dot_general — is the sum
  over k < K of l (p, k) · r (k, q), and in particular reads only row p of the left factor and column q of the right one.
  General: nothing here depends on a particular program. An instance supplies the two kept coordinates (`hl0`, `hr1`:
  each is `unfold DotDims.lhsIdx; rw [dif_neg …, dif_pos …]; rfl` for literal dimension numbers) and `rfl` four times.
-/
import Idealize.ShloMosaic.Lib.ValueIdx
import Idealize.ShloMosaic.PureOps.Ideal.Laws

noncomputable section

namespace Cert.ProductAt

open Idealize.ShloMosaic

/-- The index (p, q) of a two-axis shape, from the two numbers and their bounds. -/
abbrev at2 {n0 n1 : Nat} (p : Nat) (hp : p < n0) (q : Nat) (hq : q < n1) : (⟨2, ![n0, n1]⟩ : Shape).Idx := fun a => match a with
  | ⟨0, _⟩ => ⟨p, hp⟩
  | ⟨1, _⟩ => ⟨q, hq⟩

/-- Equal coordinates give the same index. -/
theorem at2_congr {n0 n1 : Nat} {p p' q q' : Nat} (hp : p < n0) (hp' : p' < n0) (hq : q < n1) (hq' : q' < n1)
    (ep : p = p') (eq : q = q') : (at2 p hp q hq : (⟨2, ![n0, n1]⟩ : Shape).Idx) = at2 p' hp' q' hq' := by
  subst ep; subst eq; rfl

/-- Every index of a two-axis shape is the index of its two coordinates. -/
theorem eq_at2 {n0 n1 : Nat} (j : (⟨2, ![n0, n1]⟩ : Shape).Idx) :
    j = at2 (j 0).val (ValueIdx.idx2_lt0 j) (j 1).val (ValueIdx.idx2_lt1 j) := by
  funext a; match a with | ⟨0, _⟩ => rfl | ⟨1, _⟩ => rfl

/-- THE SUM, RE-INDEXED. Dimension numbers that contract the left factor's axis 1 with the right factor's axis 0 and
    keep the left factor's axis 0 and the right factor's axis 1 as the result's rows and columns (`hl0`, `hr1`): the sum
    over the contraction index is the sum over k < K of l (p, k) · r (k, q) at the result index (p, q). -/
theorem product_sum_eq {A B K : Nat} {φ₁ φ₂ : FTy}
    (d : DotDims (⟨2, ![A, K]⟩ : Shape) (⟨2, ![K, B]⟩ : Shape) (⟨2, ![A, B]⟩ : Shape))
    (hr : d.contr.rank = 1) (hs : d.contr.size ⟨0, by omega⟩ = K)
    (hlc : d.lhsContracting = [(1 : Fin 2)]) (hrc : d.rhsContracting = [(0 : Fin 2)])
    (hl0 : ∀ (j : (⟨2, ![A, B]⟩ : Shape).Idx) (q : d.contr.Idx), (d.lhsIdx j q 0).val = (j 0).val)
    (hr1 : ∀ (j : (⟨2, ![A, B]⟩ : Shape).Idx) (q : d.contr.Idx), (d.rhsIdx j q 1).val = (j 1).val)
    (l : FVec Ideal (⟨2, ![A, K]⟩ : Shape) φ₁) (r : FVec Ideal (⟨2, ![K, B]⟩ : Shape) φ₂) (j : (⟨2, ![A, B]⟩ : Shape).Idx) :
    ∑ q : d.contr.Idx, l (d.lhsIdx j q) * r (d.rhsIdx j q)
      = ∑ k : Fin K, l (at2 (j 0).val (ValueIdx.idx2_lt0 j) k.val k.isLt) * r (at2 k.val k.isLt (j 1).val (ValueIdx.idx2_lt1 j)) := by
  rw [← Equiv.sum_comp (ValueIdx.contrEquiv1 d K hr hs).symm]
  refine Finset.sum_congr rfl fun k _ => ?_
  have hk := ValueIdx.contrEquiv1_symm_val d K hr hs k
  have el : d.lhsIdx j ((ValueIdx.contrEquiv1 d K hr hs).symm k) = at2 (j 0).val (ValueIdx.idx2_lt0 j) k.val k.isLt :=
    funext fun a => Fin.ext (by
      match a with
      | ⟨0, _⟩ => exact hl0 j _
      | ⟨1, _⟩ => exact (d.lhsIdx_val_of_single hlc j _).trans hk)
  have er : d.rhsIdx j ((ValueIdx.contrEquiv1 d K hr hs).symm k) = at2 k.val k.isLt (j 1).val (ValueIdx.idx2_lt1 j) :=
    funext fun a => Fin.ext (by
      match a with
      | ⟨0, _⟩ => exact (d.rhsIdx_val_of_single hrc j _).trans hk
      | ⟨1, _⟩ => exact hr1 j _)
  rw [el, er]

end Cert.ProductAt

end
-- ==== Proof.MatmulAt.lean ====
/-
  A matrix product read at an index, on the extended reals.

  For a product [A, K] × [K, B] contracted over the one shared axis, with no batch axis, the entry at row p and
  column q is the plain sum  Σ_{k < K} l (p, k) · r (k, q).  On the extended reals the kernel's product into a zero
  accumulator and the host's dot_general are both this sum (the accumulator, or the host's initial value, is an exact
  zero), so a row block of a product is the product of the row block: the entry only reads row p of the left factor.
  The argument is written once, for any dimension numbers of that kind (Proof/LibProductAt.lean); the four instances
  here are the kernel's two block products and the reference's two whole products.
-/
import proofs.«128285_j37847251813253_2_alg».proof.Proof.Gen.KernelIdeal
import proofs.«128285_j37847251813253_2_alg».proof.Proof.Gen.ReferenceIdeal
import proofs.«128285_j37847251813253_2_alg».proof.Proof.LibProductAt
import Idealize.ShloMosaic.Lib.ValueIdx
import Idealize.ShloMosaic.PureOps.Ideal.Laws

noncomputable section

namespace Cert.Gcn

open Idealize.ShloMosaic

export Cert.ProductAt (at2 at2_congr eq_at2 product_sum_eq)

/-! ## The kernel's two block products -/

theorem blockDot32_row (j : Cert.KernelIdeal.S10000x32.Idx) (q : Cert.KernelIdeal.dot_S10000x32_S32x32_S10000x32_1_0_0_1_n_n.contr.Idx) :
    (Cert.KernelIdeal.dot_S10000x32_S32x32_S10000x32_1_0_0_1_n_n.lhsIdx j q 0).val = (j 0).val := by
  unfold DotDims.lhsIdx
  rw [dif_neg (show ¬(0 : Fin Cert.KernelIdeal.S10000x32.rank) ∈ Cert.KernelIdeal.dot_S10000x32_S32x32_S10000x32_1_0_0_1_n_n.lhsBatch by decide),
    dif_pos (show (0 : Fin Cert.KernelIdeal.S10000x32.rank) ∈ Cert.KernelIdeal.dot_S10000x32_S32x32_S10000x32_1_0_0_1_n_n.lhsNonContracting by decide)]
  rfl
theorem blockDot32_col (j : Cert.KernelIdeal.S10000x32.Idx) (q : Cert.KernelIdeal.dot_S10000x32_S32x32_S10000x32_1_0_0_1_n_n.contr.Idx) :
    (Cert.KernelIdeal.dot_S10000x32_S32x32_S10000x32_1_0_0_1_n_n.rhsIdx j q 1).val = (j 1).val := by
  unfold DotDims.rhsIdx
  rw [dif_neg (show ¬(1 : Fin Cert.KernelIdeal.S32x32.rank) ∈ Cert.KernelIdeal.dot_S10000x32_S32x32_S10000x32_1_0_0_1_n_n.rhsBatch by decide),
    dif_pos (show (1 : Fin Cert.KernelIdeal.S32x32.rank) ∈ Cert.KernelIdeal.dot_S10000x32_S32x32_S10000x32_1_0_0_1_n_n.rhsNonContracting by decide)]
  rfl
/-- A [10000, 32] row block times the [32, 32] weights into a zero accumulator, at an entry. -/
theorem blockProduct32_apply {φ₁ φ₂ : FTy} (l : FVec Ideal Cert.KernelIdeal.S10000x32 φ₁) (r : FVec Ideal Cert.KernelIdeal.S32x32 φ₂)
    (j : Cert.KernelIdeal.S10000x32.Idx) :
    FloatOps.matmul Cert.KernelIdeal.dot_S10000x32_S32x32_S10000x32_1_0_0_1_n_n none l r (constant Cert.KernelIdeal.S10000x32 .f32 0x00000000#32) j
      = ∑ k : Fin 32, l (at2 (j 0).val (ValueIdx.idx2_lt0 j) k.val k.isLt) * r (at2 k.val k.isLt (j 1).val (ValueIdx.idx2_lt1 j)) :=
  (Ideal.matmul_constant_zero_apply _ none l r j).trans
    (product_sum_eq Cert.KernelIdeal.dot_S10000x32_S32x32_S10000x32_1_0_0_1_n_n rfl rfl rfl rfl blockDot32_row blockDot32_col l r j)

theorem blockDot16_row (j : Cert.KernelIdeal.S10000x16.Idx) (q : Cert.KernelIdeal.dot_S10000x32_S32x16_S10000x16_1_0_0_1_n_n.contr.Idx) :
    (Cert.KernelIdeal.dot_S10000x32_S32x16_S10000x16_1_0_0_1_n_n.lhsIdx j q 0).val = (j 0).val := by
  unfold DotDims.lhsIdx
  rw [dif_neg (show ¬(0 : Fin Cert.KernelIdeal.S10000x32.rank) ∈ Cert.KernelIdeal.dot_S10000x32_S32x16_S10000x16_1_0_0_1_n_n.lhsBatch by decide),
    dif_pos (show (0 : Fin Cert.KernelIdeal.S10000x32.rank) ∈ Cert.KernelIdeal.dot_S10000x32_S32x16_S10000x16_1_0_0_1_n_n.lhsNonContracting by decide)]
  rfl
theorem blockDot16_col (j : Cert.KernelIdeal.S10000x16.Idx) (q : Cert.KernelIdeal.dot_S10000x32_S32x16_S10000x16_1_0_0_1_n_n.contr.Idx) :
    (Cert.KernelIdeal.dot_S10000x32_S32x16_S10000x16_1_0_0_1_n_n.rhsIdx j q 1).val = (j 1).val := by
  unfold DotDims.rhsIdx
  rw [dif_neg (show ¬(1 : Fin Cert.KernelIdeal.S32x16.rank) ∈ Cert.KernelIdeal.dot_S10000x32_S32x16_S10000x16_1_0_0_1_n_n.rhsBatch by decide),
    dif_pos (show (1 : Fin Cert.KernelIdeal.S32x16.rank) ∈ Cert.KernelIdeal.dot_S10000x32_S32x16_S10000x16_1_0_0_1_n_n.rhsNonContracting by decide)]
  rfl
/-- A [10000, 32] row block times the [32, 16] weights into a zero accumulator, at an entry. -/
theorem blockProduct16_apply {φ₁ φ₂ : FTy} (l : FVec Ideal Cert.KernelIdeal.S10000x32 φ₁) (r : FVec Ideal Cert.KernelIdeal.S32x16 φ₂)
    (j : Cert.KernelIdeal.S10000x16.Idx) :
    FloatOps.matmul Cert.KernelIdeal.dot_S10000x32_S32x16_S10000x16_1_0_0_1_n_n none l r (constant Cert.KernelIdeal.S10000x16 .f32 0x00000000#32) j
      = ∑ k : Fin 32, l (at2 (j 0).val (ValueIdx.idx2_lt0 j) k.val k.isLt) * r (at2 k.val k.isLt (j 1).val (ValueIdx.idx2_lt1 j)) :=
  (Ideal.matmul_constant_zero_apply _ none l r j).trans
    (product_sum_eq Cert.KernelIdeal.dot_S10000x32_S32x16_S10000x16_1_0_0_1_n_n rfl rfl rfl rfl blockDot16_row blockDot16_col l r j)

/-! ## The reference's two whole products -/

theorem wholeDot32_row (j : Cert.ReferenceIdeal.S100000x32.Idx) (q : Cert.ReferenceIdeal.dot_S100000x32_S32x32_S100000x32_1_0_0_1_n_n.contr.Idx) :
    (Cert.ReferenceIdeal.dot_S100000x32_S32x32_S100000x32_1_0_0_1_n_n.lhsIdx j q 0).val = (j 0).val := by
  unfold DotDims.lhsIdx
  rw [dif_neg (show ¬(0 : Fin Cert.ReferenceIdeal.S100000x32.rank) ∈ Cert.ReferenceIdeal.dot_S100000x32_S32x32_S100000x32_1_0_0_1_n_n.lhsBatch by decide),
    dif_pos (show (0 : Fin Cert.ReferenceIdeal.S100000x32.rank) ∈ Cert.ReferenceIdeal.dot_S100000x32_S32x32_S100000x32_1_0_0_1_n_n.lhsNonContracting by decide)]
  rfl
theorem wholeDot32_col (j : Cert.ReferenceIdeal.S100000x32.Idx) (q : Cert.ReferenceIdeal.dot_S100000x32_S32x32_S100000x32_1_0_0_1_n_n.contr.Idx) :
    (Cert.ReferenceIdeal.dot_S100000x32_S32x32_S100000x32_1_0_0_1_n_n.rhsIdx j q 1).val = (j 1).val := by
  unfold DotDims.rhsIdx
  rw [dif_neg (show ¬(1 : Fin Cert.ReferenceIdeal.S32x32.rank) ∈ Cert.ReferenceIdeal.dot_S100000x32_S32x32_S100000x32_1_0_0_1_n_n.rhsBatch by decide),
    dif_pos (show (1 : Fin Cert.ReferenceIdeal.S32x32.rank) ∈ Cert.ReferenceIdeal.dot_S100000x32_S32x32_S100000x32_1_0_0_1_n_n.rhsNonContracting by decide)]
  rfl
/-- The whole [100000, 32] table times the [32, 32] weights on the host, at an entry. -/
theorem wholeProduct32_apply {φ₁ φ₂ : FTy} (l : FVec Ideal Cert.ReferenceIdeal.S100000x32 φ₁) (r : FVec Ideal Cert.ReferenceIdeal.S32x32 φ₂)
    (j : Cert.ReferenceIdeal.S100000x32.Idx) :
    Host.dotGeneral Cert.ReferenceIdeal.dot_S100000x32_S32x32_S100000x32_1_0_0_1_n_n none l r j
      = ∑ k : Fin 32, l (at2 (j 0).val (ValueIdx.idx2_lt0 j) k.val k.isLt) * r (at2 k.val k.isLt (j 1).val (ValueIdx.idx2_lt1 j)) := by
  simp only [Host.dotGeneral]
  rw [Ideal.dotGeneral_apply]
  exact product_sum_eq Cert.ReferenceIdeal.dot_S100000x32_S32x32_S100000x32_1_0_0_1_n_n rfl rfl rfl rfl wholeDot32_row wholeDot32_col l r j

theorem wholeDot16_row (j : Cert.ReferenceIdeal.S100000x16.Idx) (q : Cert.ReferenceIdeal.dot_S100000x32_S32x16_S100000x16_1_0_0_1_n_n.contr.Idx) :
    (Cert.ReferenceIdeal.dot_S100000x32_S32x16_S100000x16_1_0_0_1_n_n.lhsIdx j q 0).val = (j 0).val := by
  unfold DotDims.lhsIdx
  rw [dif_neg (show ¬(0 : Fin Cert.ReferenceIdeal.S100000x32.rank) ∈ Cert.ReferenceIdeal.dot_S100000x32_S32x16_S100000x16_1_0_0_1_n_n.lhsBatch by decide),
    dif_pos (show (0 : Fin Cert.ReferenceIdeal.S100000x32.rank) ∈ Cert.ReferenceIdeal.dot_S100000x32_S32x16_S100000x16_1_0_0_1_n_n.lhsNonContracting by decide)]
  rfl
theorem wholeDot16_col (j : Cert.ReferenceIdeal.S100000x16.Idx) (q : Cert.ReferenceIdeal.dot_S100000x32_S32x16_S100000x16_1_0_0_1_n_n.contr.Idx) :
    (Cert.ReferenceIdeal.dot_S100000x32_S32x16_S100000x16_1_0_0_1_n_n.rhsIdx j q 1).val = (j 1).val := by
  unfold DotDims.rhsIdx
  rw [dif_neg (show ¬(1 : Fin Cert.ReferenceIdeal.S32x16.rank) ∈ Cert.ReferenceIdeal.dot_S100000x32_S32x16_S100000x16_1_0_0_1_n_n.rhsBatch by decide),
    dif_pos (show (1 : Fin Cert.ReferenceIdeal.S32x16.rank) ∈ Cert.ReferenceIdeal.dot_S100000x32_S32x16_S100000x16_1_0_0_1_n_n.rhsNonContracting by decide)]
  rfl
/-- The whole [100000, 32] table times the [32, 16] weights on the host, at an entry. -/
theorem wholeProduct16_apply {φ₁ φ₂ : FTy} (l : FVec Ideal Cert.ReferenceIdeal.S100000x32 φ₁) (r : FVec Ideal Cert.ReferenceIdeal.S32x16 φ₂)
    (j : Cert.ReferenceIdeal.S100000x16.Idx) :
    Host.dotGeneral Cert.ReferenceIdeal.dot_S100000x32_S32x16_S100000x16_1_0_0_1_n_n none l r j
      = ∑ k : Fin 32, l (at2 (j 0).val (ValueIdx.idx2_lt0 j) k.val k.isLt) * r (at2 k.val k.isLt (j 1).val (ValueIdx.idx2_lt1 j)) := by
  simp only [Host.dotGeneral]
  rw [Ideal.dotGeneral_apply]
  exact product_sum_eq Cert.ReferenceIdeal.dot_S100000x32_S32x16_S100000x16_1_0_0_1_n_n rfl rfl rfl rfl wholeDot16_row wholeDot16_col l r j

end Cert.Gcn

end
-- ==== Proof.Linear1.lean ====
/-
  The first region's array: x · W1, whole.

  The region runs ten grid points; point t stages rows 10000·t … 10000·t + 9999 of x (all 32 columns) and the whole
  [32, 32] weight matrix, multiplies them, and writes the [10000, 32] product back as rows 10000·t … 10000·t + 9999
  of the result. An entry (p, q) of a product reads only row p of the left factor, so what point t writes back is that
  row block of the WHOLE product x · W1; the ten row blocks tile the 100000 rows, so the array ends at x · W1.
-/
import proofs.«128285_j37847251813253_2_alg».proof.Proof.Gen.KernelIdeal.Frame
import proofs.«128285_j37847251813253_2_alg».proof.Proof.GcnSpec
import proofs.«128285_j37847251813253_2_alg».proof.Proof.MatmulAt
import Idealize.ShloMosaic.Lib.Pipeline.Value

set_option maxRecDepth 16384

noncomputable section

namespace Cert.KernelIdeal.GcnRegions

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem offset_zero : (![0, 0] : Fin 2 → Nat) = fun _ => 0 := funext fun a => by fin_cases a <;> rfl

/-- The printed index maps over the ten points: the table's and the result's block index is (t, 0), the weights' (0, 0). -/
theorem index_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT t WRITES BACK is row block t of the whole product of the arrays as the region finds them. -/
theorem flushed_linear1 (c : Dev nD) (t : Fin cfg0.N) :
    (dat0 V c).flushed 2 t = ((cfg0.win 2).blk t).view.read (Elt Ideal)
      (Cert.Gcn.linear1 (F := Ideal) (V c main_arg0) (V c main_arg2)) := by
  show (cfg0.win 2).cut (grid0.coords t) ((dat0 V c).after 2 t) = _
  rw [after0_2]
  unfold out0_2
  rw [View.canon_unit_zero offset_zero]
  simp only [View.ld_unit_zero (S := S10000x32) offset_zero, View.ld_unit_zero (S := S32x32) offset_zero]
  obtain ⟨e00, e01, e10, e11, e20, e21⟩ := index_facts0 t
  funext j
  show k0_pay1 (iblk0 V c 0 t) (iblk0 V c 1 t) j
    = Cert.Gcn.linear1 (F := Ideal) (V c main_arg0) (V c main_arg2) (((cfg0.win 2).blk t).view.emb j)
  refine (Cert.Gcn.blockProduct32_apply _ _ j).trans ?_
  refine ((Cert.Gcn.wholeProduct32_apply _ _ _).trans ?_).symm
  refine Finset.sum_congr rfl fun k _ => ?_
  have hj0 : (j 0).val < 10000 := (j 0).isLt
  have hj1 : (j 1).val < 32 := (j 1).isLt
  have hl : V c main_arg0 (Cert.Gcn.at2 ((((cfg0.win 2).blk t).view.emb j) 0).val (ValueIdx.idx2_lt0 _) k.val k.isLt)
      = iblk0 V c 0 t (Cert.Gcn.at2 (j 0).val (ValueIdx.idx2_lt0 j) k.val k.isLt) := by
    show _ = V c main_arg0 (((cfg0.win 0).blk t).view.emb (Cert.Gcn.at2 (j 0).val (ValueIdx.idx2_lt0 j) k.val k.isLt))
    refine congrArg (V c main_arg0) (funext fun a => Fin.ext ?_)
    match a with
    | ⟨0, _⟩ =>
      show win0_2.index t (0 : Fin 2) * 10000 + 1 * (j 0).val = win0_0.index t (0 : Fin 2) * 10000 + 1 * (j 0).val
      omega
    | ⟨1, _⟩ =>
      show k.val = win0_0.index t (1 : Fin 2) * 32 + 1 * k.val
      omega
  have hr : V c main_arg2 (Cert.Gcn.at2 k.val k.isLt ((((cfg0.win 2).blk t).view.emb j) 1).val (ValueIdx.idx2_lt1 _))
      = iblk0 V c 1 t (Cert.Gcn.at2 k.val k.isLt (j 1).val (ValueIdx.idx2_lt1 j)) := by
    show _ = V c main_arg2 (((cfg0.win 1).blk t).view.emb (Cert.Gcn.at2 k.val k.isLt (j 1).val (ValueIdx.idx2_lt1 j)))
    refine congrArg (V c main_arg2) (funext fun a => Fin.ext ?_)
    match a with
    | ⟨0, _⟩ =>
      show k.val = win0_1.index t (0 : Fin 2) * 32 + 1 * k.val
      omega
    | ⟨1, _⟩ =>
      show win0_2.index t (1 : Fin 2) * 32 + 1 * (j 1).val = win0_1.index t (1 : Fin 2) * 32 + 1 * (j 1).val
      omega
  exact congrArg₂ (· * ·) hl hr

/-- An index of the result is in point t's block iff each coordinate is in the block's range on its axis. -/
theorem mem_block0 (t : Fin cfg0.N) (i : S100000x32.Idx) :
    i ∈ ((cfg0.win 2).blk t).view.set ↔ ∀ a : Fin 2, win0_2.index t a * S10000x32.size a ≤ (i a).val ∧ (i a).val < win0_2.index t a * S10000x32.size a + S10000x32.size a := by
  show i ∈ ((View.whole main_v32).slice (win0_2.rect t)).set ↔ _
  rw [View.set_slice_whole, Rect.mem_set_unit]
  exact Iff.rfl

/-- Row p lies in the block of point p / 10000: the ten row blocks cover the array. -/
theorem cover0 (i : S100000x32.Idx) : ∃ t : Fin cfg0.N, (cfg0.win 2).flush t = true ∧ i ∈ ((cfg0.win 2).blk t).view.set := by
  have hi0 : (i 0).val < 100000 := (i 0).isLt
  have hi1 : (i 1).val < 32 := (i 1).isLt
  refine ⟨⟨(i 0).val / 10000, by rw [show cfg0.N = 10 from N_0]; omega⟩, flush0_2 _, ?_⟩
  rw [mem_block0]
  obtain ⟨-, -, -, -, e20, e21⟩ := index_facts0 ⟨(i 0).val / 10000, by rw [show cfg0.N = 10 from N_0]; omega⟩
  intro a
  match a with
  | ⟨0, _⟩ =>
    show win0_2.index _ (0 : Fin 2) * 10000 ≤ (i 0).val ∧ (i 0).val < win0_2.index _ (0 : Fin 2) * 10000 + 10000
    rw [e20]; show (i 0).val / 10000 * 10000 ≤ (i 0).val ∧ (i 0).val < (i 0).val / 10000 * 10000 + 10000
    omega
  | ⟨1, _⟩ =>
    show win0_2.index _ (1 : Fin 2) * 32 ≤ (i 1).val ∧ (i 1).val < win0_2.index _ (1 : Fin 2) * 32 + 32
    rw [e21]; omega

/-- THE ARRAY after the region: the whole product x · W1 of the arrays as the region finds them. -/
theorem array_linear1 (c : Dev nD) :
    (dat0 V c).arrAt 2 cfg0.N = Cert.Gcn.linear1 (F := Ideal) (V c main_arg0) (V c main_arg2) :=
  (dat0 V c).arrAt_eq_of_cover 2 _ (fun t _ => flushed_linear1 V c t) cover0

end Cert.KernelIdeal.GcnRegions

end
-- ==== Proof.Linear2.lean ====
/-
  The second region's array: relu (agg + b1) · W2, whole.

  Ten grid points again; point t stages rows 10000·t … 10000·t + 9999 of the aggregated table, the bias as a [1, 32]
  row and the whole [32, 16] weight matrix, computes max (a (p, k) + row (0, k), 0) on the block, multiplies by the
  weights, and writes the [10000, 16] product back as the same rows of the result. Entry (p, q) is
  Σ_k max (a (p, k) + row (0, k), 0) · W2 (k, q): it reads only row p of the table, so each point writes back its row
  block of the WHOLE product, and the ten blocks tile the 100000 rows.
-/
import proofs.«128285_j37847251813253_2_alg».proof.Proof.Gen.KernelIdeal.Frame
import proofs.«128285_j37847251813253_2_alg».proof.Proof.GcnSpec
import proofs.«128285_j37847251813253_2_alg».proof.Proof.MatmulAt
import proofs.«128285_j37847251813253_2_alg».proof.Proof.Linear1
import Idealize.ShloMosaic.Lib.Pipeline.Value

set_option maxRecDepth 16384

noncomputable section

namespace Cert.KernelIdeal.GcnRegions

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The printed index maps over the ten points: the table's and the result's block index is (t, 0); the row's and the
    weights' is (0, 0). -/
theorem index_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The block's left factor at (p, k): the table's entry plus the row's entry k, cut off below at 0. -/
theorem blockAct_apply (x0 : Vec Ideal S10000x32 .f32) (x1 : Vec Ideal S1x32 .f32) (p : Nat) (hp : p < 10000) (k : Nat) (hk : k < 32) :
    (truncf .bf16 (maximumf (addf (shapeCast S10000x32 x0 shapeCasts_S10000x32_S10000x32)
        (broadcastTo S10000x32 (shapeCast S1x32 x1 shapeCasts_S1x32_S1x32) broadcasts_S1x32_S10000x32))
      (broadcast S10000x32 (Scalar.ofBits (F := Ideal) .f32 0x00000000#32))) bitsLt_bf16_f32 : FVec Ideal S10000x32 .bf16)
      (Cert.Gcn.at2 p hp k hk)
    = max (x0 (Cert.Gcn.at2 p hp k hk) + x1 (Cert.Gcn.at2 0 (by decide) k hk)) (Ideal.ofBits .f32 0x00000000#32) := by
  rw [shapeCast_self, shapeCast_self]
  show max (x0 (Cert.Gcn.at2 p hp k hk) + broadcastTo S10000x32 x1 broadcasts_S1x32_S10000x32 (Cert.Gcn.at2 p hp k hk)) _ = _
  rw [broadcastTo_apply x1 broadcasts_S1x32_S10000x32 (Cert.Gcn.at2 p hp k hk) (Cert.Gcn.at2 0 (by decide) k hk) (fun a => by
    match a with
    | ⟨0, _⟩ => rfl
    | ⟨1, _⟩ => rfl)]
  rfl

/-- The whole table's left factor at (p, k): the same, read through the host's two broadcasts. -/
theorem wholeAct_apply (a : FVec Ideal Cert.ReferenceIdeal.S100000x32 .f32) (row : FVec Ideal Cert.ReferenceIdeal.S1x32 .f32)
    (p : Nat) (hp : p < 100000) (k : Nat) (hk : k < 32) :
    Cert.Gcn.biasReluRow (F := Ideal) a row (Cert.Gcn.at2 p hp k hk)
    = max (a (Cert.Gcn.at2 p hp k hk) + row (Cert.Gcn.at2 0 (by decide) k hk)) (Ideal.ofBits .f32 0x00000000#32) := by
  unfold Cert.Gcn.biasReluRow
  show max (a (Cert.Gcn.at2 p hp k hk) + broadcastInDim Cert.ReferenceIdeal.S100000x32 ![0, 1] _ row (Cert.Gcn.at2 p hp k hk))
      (broadcastInDim Cert.ReferenceIdeal.S100000x32 ![] _ (constant (F := Ideal) Cert.ReferenceIdeal.S_ .f32 0x00000000#32) (Cert.Gcn.at2 p hp k hk)) = _
  rw [broadcastInDim_apply ![0, 1] _ row (Cert.Gcn.at2 p hp k hk) (Cert.Gcn.at2 0 (by decide) k hk) (fun a => by
      match a with
      | ⟨0, _⟩ => rfl
      | ⟨1, _⟩ => rfl),
    broadcastInDim_apply ![] _ (constant (F := Ideal) Cert.ReferenceIdeal.S_ .f32 0x00000000#32) (Cert.Gcn.at2 p hp k hk) ValueIdx.ix0 (fun a => a.elim0)]
  rfl

/-- WHAT POINT t WRITES BACK is row block t of the whole product of the arrays as the region finds them. -/
theorem flushed_linear2 (c : Dev nD) (t : Fin cfg1.N) :
    (dat1 V c).flushed 3 t = ((cfg1.win 3).blk t).view.read (Elt Ideal)
      (Cert.Gcn.linear2 (F := Ideal) (Cert.Gcn.biasReluRow (F := Ideal) (V c main_v45) (V c main_v46)) (V c main_arg4)) := by
  show (cfg1.win 3).cut (grid1.coords t) ((dat1 V c).after 3 t) = _
  rw [after1_3]
  unfold out1_3
  rw [View.canon_unit_zero offset_zero]
  simp only [View.ld_unit_zero (S := S10000x32) offset_zero, View.ld_unit_zero (S := S1x32) offset_zero,
    View.ld_unit_zero (S := S32x16) offset_zero]
  obtain ⟨e00, e01, e10, e11, e20, e21, e30, e31⟩ := index_facts1 t
  funext j
  show k1_pay1 (iblk1 V c 0 t) (iblk1 V c 1 t) (iblk1 V c 2 t) j
    = Cert.Gcn.linear2 (F := Ideal) (Cert.Gcn.biasReluRow (F := Ideal) (V c main_v45) (V c main_v46)) (V c main_arg4)
        (((cfg1.win 3).blk t).view.emb j)
  refine (Cert.Gcn.blockProduct16_apply _ _ j).trans ?_
  refine ((Cert.Gcn.wholeProduct16_apply _ _ _).trans ?_).symm
  refine Finset.sum_congr rfl fun k _ => ?_
  have hj0 : (j 0).val < 10000 := (j 0).isLt
  have hj1 : (j 1).val < 16 := (j 1).isLt
  rw [wholeAct_apply, blockAct_apply]
  have hl : V c main_v45 (Cert.Gcn.at2 ((((cfg1.win 3).blk t).view.emb j) 0).val (ValueIdx.idx2_lt0 _) k.val k.isLt)
      = iblk1 V c 0 t (Cert.Gcn.at2 (j 0).val (ValueIdx.idx2_lt0 j) k.val k.isLt) := by
    show _ = V c main_v45 (((cfg1.win 0).blk t).view.emb (Cert.Gcn.at2 (j 0).val (ValueIdx.idx2_lt0 j) k.val k.isLt))
    refine congrArg (V c main_v45) (funext fun a => Fin.ext ?_)
    match a with
    | ⟨0, _⟩ =>
      show win1_3.index t (0 : Fin 2) * 10000 + 1 * (j 0).val = win1_0.index t (0 : Fin 2) * 10000 + 1 * (j 0).val
      omega
    | ⟨1, _⟩ =>
      show k.val = win1_0.index t (1 : Fin 2) * 32 + 1 * k.val
      omega
  have hb : V c main_v46 (Cert.Gcn.at2 0 (by decide) k.val k.isLt)
      = iblk1 V c 1 t (Cert.Gcn.at2 0 (by decide) k.val k.isLt) := by
    show _ = V c main_v46 (((cfg1.win 1).blk t).view.emb (Cert.Gcn.at2 0 (by decide) k.val k.isLt))
    refine congrArg (V c main_v46) (funext fun a => Fin.ext ?_)
    match a with
    | ⟨0, _⟩ =>
      show 0 = win1_1.index t (0 : Fin 2) * 1 + 1 * 0
      omega
    | ⟨1, _⟩ =>
      show k.val = win1_1.index t (1 : Fin 2) * 32 + 1 * k.val
      omega
  have hr : V c main_arg4 (Cert.Gcn.at2 k.val k.isLt ((((cfg1.win 3).blk t).view.emb j) 1).val (ValueIdx.idx2_lt1 _))
      = iblk1 V c 2 t (Cert.Gcn.at2 k.val k.isLt (j 1).val (ValueIdx.idx2_lt1 j)) := by
    show _ = V c main_arg4 (((cfg1.win 2).blk t).view.emb (Cert.Gcn.at2 k.val k.isLt (j 1).val (ValueIdx.idx2_lt1 j)))
    refine congrArg (V c main_arg4) (funext fun a => Fin.ext ?_)
    match a with
    | ⟨0, _⟩ =>
      show k.val = win1_2.index t (0 : Fin 2) * 32 + 1 * k.val
      omega
    | ⟨1, _⟩ =>
      show win1_3.index t (1 : Fin 2) * 16 + 1 * (j 1).val = win1_2.index t (1 : Fin 2) * 16 + 1 * (j 1).val
      omega
  rw [hl, hb]
  exact congrArg (_ * ·) hr

/-- An index of the result is in point t's block iff each coordinate is in the block's range on its axis. -/
theorem mem_block1 (t : Fin cfg1.N) (i : S100000x16.Idx) :
    i ∈ ((cfg1.win 3).blk t).view.set ↔ ∀ a : Fin 2, win1_3.index t a * S10000x16.size a ≤ (i a).val ∧ (i a).val < win1_3.index t a * S10000x16.size a + S10000x16.size a := by
  show i ∈ ((View.whole main_v47).slice (win1_3.rect t)).set ↔ _
  rw [View.set_slice_whole, Rect.mem_set_unit]
  exact Iff.rfl

/-- Row p lies in the block of point p / 10000: the ten row blocks cover the array. -/
theorem cover1 (i : S100000x16.Idx) : ∃ t : Fin cfg1.N, (cfg1.win 3).flush t = true ∧ i ∈ ((cfg1.win 3).blk t).view.set := by
  have hi0 : (i 0).val < 100000 := (i 0).isLt
  have hi1 : (i 1).val < 16 := (i 1).isLt
  refine ⟨⟨(i 0).val / 10000, by rw [show cfg1.N = 10 from N_1]; omega⟩, flush1_3 _, ?_⟩
  rw [mem_block1]
  obtain ⟨-, -, -, -, -, -, e30, e31⟩ := index_facts1 ⟨(i 0).val / 10000, by rw [show cfg1.N = 10 from N_1]; omega⟩
  intro a
  match a with
  | ⟨0, _⟩ =>
    show win1_3.index _ (0 : Fin 2) * 10000 ≤ (i 0).val ∧ (i 0).val < win1_3.index _ (0 : Fin 2) * 10000 + 10000
    rw [e30]; show (i 0).val / 10000 * 10000 ≤ (i 0).val ∧ (i 0).val < (i 0).val / 10000 * 10000 + 10000
    omega
  | ⟨1, _⟩ =>
    show win1_3.index _ (1 : Fin 2) * 16 ≤ (i 1).val ∧ (i 1).val < win1_3.index _ (1 : Fin 2) * 16 + 16
    rw [e31]; omega

/-- THE ARRAY after the region: relu (table + row) · W2, whole, of the arrays as the region finds them. -/
theorem array_linear2 (c : Dev nD) :
    (dat1 V c).arrAt 3 cfg1.N
      = Cert.Gcn.linear2 (F := Ideal) (Cert.Gcn.biasReluRow (F := Ideal) (V c main_v45) (V c main_v46)) (V c main_arg4) :=
  (dat1 V c).arrAt_eq_of_cover 3 _ (fun t _ => flushed_linear2 V c t) cover1

end Cert.KernelIdeal.GcnRegions

end
-- ==== Proof.Fold.lean ====
/-
  The kernel's result, read through the segment boundaries.

  The contents of the TensorCore's buffers at the seven boundaries of @main are a fold from the launch memory: a host
  stretch applies its operations in order, a region replaces its arrays by what its write-backs leave and keeps every
  other buffer. Read backwards from the result buffer:

    result      = aggregate (second product) + b2                 (last host stretch)
    second product = relu (first aggregate + b1) · W2, whole      (second region)
    first aggregate = aggregate (first product)                   (host stretch between the regions)
    first product  = x · W1, whole                                (first region)
    endpoints, coefficient: functions of the edge list alone      (the stretches before the first region)

  and the endpoints, the coefficient and the arguments are carried unchanged through every later segment, since no later
  operation and no region writes them. Composed, the result buffer ends at the network `Cert.Gcn.gcn` of the six arguments.
-/
import proofs.«128285_j37847251813253_2_alg».proof.Proof.Gen.KernelIdeal.Frame
import proofs.«128285_j37847251813253_2_alg».proof.Proof.GcnSpec
import proofs.«128285_j37847251813253_2_alg».proof.Proof.Linear1
import proofs.«128285_j37847251813253_2_alg».proof.Proof.Linear2
import Idealize.ShloMosaic.Lib.StableHlo.Run
import Idealize.ShloMosaic.Lib.Pipeline.Value

set_option maxRecDepth 16384

noncomputable section

namespace Cert.KernelIdeal.GcnFold

open Cert.KernelIdeal Cert.KernelIdeal.Gen
open Idealize.ShloMosaic Idealize.ShloMosaic.TcCoe Idealize.SL.Sem Idealize.ShloMosaic.StableHlo

/-- What the one-pass rewriting of a host stretch leaves inside a concatenation's list of (shape, array) parts: each
    operation's result rewritten at its own buffer, and at any other buffer to what was there. -/
macro "stretch_parts" : tactic =>
  `(tactic| repeat (first
      | rw [nullary_result] | rw [unary_result] | rw [binary_result] | rw [reshape_result]
      | (rw [nullary_result_ne]; rotate_left; decide)
      | (rw [unary_result_ne]; rotate_left; decide)
      | (rw [binary_result_ne]; rotate_left; decide)
      | (rw [reshape_result_ne]; rotate_left; decide)))

variable (m : (ℓ : Loc nD τ sig) → Buf (Elt Ideal) ℓ) (ρ : Dev nD → PrngReg) (c : Dev nD)

/-! ## At the first region's entry: everything the edge list determines, and the arguments -/

set_option maxHeartbeats 4000000 in
/-- The source endpoints. -/
theorem entry0_src : (W3 m ρ c (Proc.devRef .tc main_v3) : IVec Cert.ReferenceIdeal.S1700000 32) = Cert.Gcn.srcIdx (m ((c : Thread nD τ).loc main_arg1)) := by
  dsimp only [W3, W2, W1, hostOps0_2, hostOps0_1, hostOps0]
  after_results_simp
  stretch_parts
  rfl

set_option maxHeartbeats 4000000 in
/-- The destination endpoints. -/
theorem entry0_dst : (W3 m ρ c (Proc.devRef .tc main_v6) : IVec Cert.ReferenceIdeal.S1700000 32) = Cert.Gcn.dstIdx (m ((c : Thread nD τ).loc main_arg1)) := by
  dsimp only [W3, W2, W1, hostOps0_2, hostOps0_1, hostOps0]
  after_results_simp
  stretch_parts
  rfl

/-! ### The coefficient, one stretch at a time

The first stretch computes the endpoints, the degrees and, from them, where the degree is positive and the inverse
square root; the call in the middle selects between that and 0; the third stretch gathers the selected table at both
endpoints of every edge and multiplies. Each lemma reads ONE stretch over the previous boundary's buffers. -/

set_option maxHeartbeats 4000000 in
theorem pre_src : (W1 m ρ c (Proc.devRef .tc main_v3) : IVec Cert.ReferenceIdeal.S1700000 32) = Cert.Gcn.srcIdx (m ((c : Thread nD τ).loc main_arg1)) := by
  dsimp only [W1, hostOps0]
  after_results_simp
  stretch_parts
  rfl

set_option maxHeartbeats 4000000 in
theorem pre_dst : (W1 m ρ c (Proc.devRef .tc main_v6) : IVec Cert.ReferenceIdeal.S1700000 32) = Cert.Gcn.dstIdx (m ((c : Thread nD τ).loc main_arg1)) := by
  dsimp only [W1, hostOps0]
  after_results_simp
  stretch_parts
  rfl

set_option maxHeartbeats 4000000 in
/-- Where the degree is positive. -/
theorem pre_positive : (W1 m ρ c (Proc.devRef .tc main_v12) : IVec Cert.ReferenceIdeal.S100000 1)
    = cmpf .ogt (Cert.Gcn.degree (F := Ideal) (Cert.Gcn.dstIdx (m ((c : Thread nD τ).loc main_arg1))))
        (broadcastInDim Cert.ReferenceIdeal.S100000 ![] Cert.ReferenceIdeal.Gen.bcast_S_S100000 (constant Cert.ReferenceIdeal.S_ .f32 0x00000000#32)) := by
  dsimp only [W1, hostOps0]
  after_results_simp
  stretch_parts
  rfl

set_option maxHeartbeats 4000000 in
/-- 1/√(max (degree, 1)). -/
theorem pre_rsqrt : (W1 m ρ c (Proc.devRef .tc main_v15) : FVec Ideal Cert.ReferenceIdeal.S100000 .f32)
    = Host.rsqrt (maximumf (Cert.Gcn.degree (F := Ideal) (Cert.Gcn.dstIdx (m ((c : Thread nD τ).loc main_arg1))))
        (broadcastInDim Cert.ReferenceIdeal.S100000 ![] Cert.ReferenceIdeal.Gen.bcast_S_S100000 (constant Cert.ReferenceIdeal.S_ .f32 0x3F800000#32))) := by
  dsimp only [W1, hostOps0]
  after_results_simp
  stretch_parts
  rfl

set_option maxHeartbeats 4000000 in
theorem pre_zero : (W1 m ρ c (Proc.devRef .tc main_cst_3) : FVec Ideal Cert.ReferenceIdeal.S_ .f32)
    = constant (F := Ideal) Cert.ReferenceIdeal.S_ .f32 0x00000000#32 := by
  dsimp only [W1, hostOps0]
  after_results_simp <;> rfl

/-- The call in the middle: the selection, over the first stretch's buffers. -/
theorem mid_select : (W2 m ρ c (Proc.devRef .tc main_v16) : FVec Ideal Cert.ReferenceIdeal.S100000 .f32)
    = select (W1 m ρ c (Proc.devRef .tc main_v12) : IVec Cert.ReferenceIdeal.S100000 1)
        (W1 m ρ c (Proc.devRef .tc main_v15) : FVec Ideal Cert.ReferenceIdeal.S100000 .f32)
        (broadcastInDim Cert.ReferenceIdeal.S100000 ![] Cert.ReferenceIdeal.Gen.bcast_S_S100000
          (id (W1 m ρ c (Proc.devRef .tc main_cst_3) : FVec Ideal Cert.ReferenceIdeal.S_ .f32))) := by
  dsimp only [W2, hostOps0_1]
  -- the first stretch's buffers stay named: the call is read over them as they are
  generalize W1 m ρ c = U
  after_results_simp <;> rfl

/-- The table the coefficient is read from: 1/√(max (deg, 1)) where deg > 0, and 0 elsewhere. -/
theorem mid_isd : (W2 m ρ c (Proc.devRef .tc main_v16) : FVec Ideal Cert.ReferenceIdeal.S100000 .f32)
    = Cert.Gcn.invSqrtDeg (F := Ideal) (Cert.Gcn.dstIdx (m ((c : Thread nD τ).loc main_arg1))) := by
  refine (mid_select m ρ c).trans ?_
  rw [pre_positive, pre_rsqrt, pre_zero]
  rfl

theorem mid_src : (W2 m ρ c (Proc.devRef .tc main_v3) : IVec Cert.ReferenceIdeal.S1700000 32) = Cert.Gcn.srcIdx (m ((c : Thread nD τ).loc main_arg1)) := by
  refine Eq.trans ?_ (pre_src m ρ c)
  dsimp only [W2, hostOps0_1]
  generalize W1 m ρ c = U
  after_results_simp
theorem mid_dst : (W2 m ρ c (Proc.devRef .tc main_v6) : IVec Cert.ReferenceIdeal.S1700000 32) = Cert.Gcn.dstIdx (m ((c : Thread nD τ).loc main_arg1)) := by
  refine Eq.trans ?_ (pre_dst m ρ c)
  dsimp only [W2, hostOps0_1]
  generalize W1 m ρ c = U
  after_results_simp

set_option maxHeartbeats 4000000 in
/-- The coefficient of every edge: the table at the source times the table at the destination. -/
theorem entry0_coef : (W3 m ρ c (Proc.devRef .tc main_v31) : FVec Ideal Cert.ReferenceIdeal.S1700000 .f32)
    = Cert.Gcn.coefOf (Cert.Gcn.invSqrtDeg (F := Ideal) (Cert.Gcn.dstIdx (m ((c : Thread nD τ).loc main_arg1)))) (Cert.Gcn.srcIdx (m ((c : Thread nD τ).loc main_arg1))) (Cert.Gcn.dstIdx (m ((c : Thread nD τ).loc main_arg1))) := by
  have h16 := mid_isd m ρ c
  have h3 := mid_src m ρ c
  have h6 := mid_dst m ρ c
  dsimp only [W3, hostOps0_2]
  -- the second boundary's buffers stay named: the third stretch is read over them, then they are replaced by their values
  generalize W2 m ρ c = U at h16 h3 h6 ⊢
  after_results_simp
  rw [h16, h3, h6]
  rfl

set_option maxHeartbeats 4000000 in
theorem entry0_arg0 : W3 m ρ c (Proc.devRef .tc main_arg0) = (m ((c : Thread nD τ).loc main_arg0)) := by
  dsimp only [W3, W2, W1, hostOps0_2, hostOps0_1, hostOps0]
  after_results_simp <;> rfl
set_option maxHeartbeats 4000000 in
theorem entry0_arg2 : W3 m ρ c (Proc.devRef .tc main_arg2) = (m ((c : Thread nD τ).loc main_arg2)) := by
  dsimp only [W3, W2, W1, hostOps0_2, hostOps0_1, hostOps0]
  after_results_simp <;> rfl
set_option maxHeartbeats 4000000 in
theorem entry0_arg3 : W3 m ρ c (Proc.devRef .tc main_arg3) = (m ((c : Thread nD τ).loc main_arg3)) := by
  dsimp only [W3, W2, W1, hostOps0_2, hostOps0_1, hostOps0]
  after_results_simp <;> rfl
set_option maxHeartbeats 4000000 in
theorem entry0_arg4 : W3 m ρ c (Proc.devRef .tc main_arg4) = (m ((c : Thread nD τ).loc main_arg4)) := by
  dsimp only [W3, W2, W1, hostOps0_2, hostOps0_1, hostOps0]
  after_results_simp <;> rfl
set_option maxHeartbeats 4000000 in
theorem entry0_arg5 : W3 m ρ c (Proc.devRef .tc main_arg5) = (m ((c : Thread nD τ).loc main_arg5)) := by
  dsimp only [W3, W2, W1, hostOps0_2, hostOps0_1, hostOps0]
  after_results_simp <;> rfl

/-! ## At the first region's exit: its result array is the whole product x · W1 -/

theorem exit0_product : (W4 m ρ c (Proc.devRef .tc main_v32) : FVec Ideal Cert.ReferenceIdeal.S100000x32 .f32)
    = Cert.Gcn.linear1 (F := Ideal) (m ((c : Thread nD τ).loc main_arg0)) (m ((c : Thread nD τ).loc main_arg2)) := by
  refine (W4_arr m ρ c 2).trans ?_
  refine (Cert.KernelIdeal.GcnRegions.array_linear1 (V3 m ρ) c).trans ?_
  show Cert.Gcn.linear1 (F := Ideal) (W3 m ρ c (Proc.devRef .tc main_arg0)) (W3 m ρ c (Proc.devRef .tc main_arg2)) = _
  rw [entry0_arg0, entry0_arg2]

/-! ## At the second region's entry: the first aggregate, the bias as a row, and what is carried -/

/-- The host stretch between the regions writes none of these buffers. -/
theorem entry1_keep_v3 : W5 m ρ c (Proc.devRef .tc main_v3) = W4 m ρ c (Proc.devRef .tc main_v3) := by
  dsimp only [W5, hostOps1]; after_results_simp
theorem entry1_keep_v6 : W5 m ρ c (Proc.devRef .tc main_v6) = W4 m ρ c (Proc.devRef .tc main_v6) := by
  dsimp only [W5, hostOps1]; after_results_simp
theorem entry1_keep_v31 : W5 m ρ c (Proc.devRef .tc main_v31) = W4 m ρ c (Proc.devRef .tc main_v31) := by
  dsimp only [W5, hostOps1]; after_results_simp
theorem entry1_keep_arg4 : W5 m ρ c (Proc.devRef .tc main_arg4) = W4 m ρ c (Proc.devRef .tc main_arg4) := by
  dsimp only [W5, hostOps1]; after_results_simp
theorem entry1_keep_arg5 : W5 m ρ c (Proc.devRef .tc main_arg5) = W4 m ρ c (Proc.devRef .tc main_arg5) := by
  dsimp only [W5, hostOps1]; after_results_simp

set_option maxHeartbeats 4000000 in
/-- The first aggregate: gather, scale and scatter-add of the whole first product. -/
theorem entry1_aggregate : (W5 m ρ c (Proc.devRef .tc main_v45) : FVec Ideal Cert.ReferenceIdeal.S100000x32 .f32)
    = Cert.Gcn.aggregate32 (F := Ideal) (Cert.Gcn.srcIdx (m ((c : Thread nD τ).loc main_arg1))) (Cert.Gcn.dstIdx (m ((c : Thread nD τ).loc main_arg1)))
        (Cert.Gcn.coefOf (Cert.Gcn.invSqrtDeg (F := Ideal) (Cert.Gcn.dstIdx (m ((c : Thread nD τ).loc main_arg1)))) (Cert.Gcn.srcIdx (m ((c : Thread nD τ).loc main_arg1))) (Cert.Gcn.dstIdx (m ((c : Thread nD τ).loc main_arg1))))
        (Cert.Gcn.linear1 (F := Ideal) (m ((c : Thread nD τ).loc main_arg0)) (m ((c : Thread nD τ).loc main_arg2))) := by
  dsimp only [W5, hostOps1]
  after_results_simp
  rw [exit0_product, W4_of_ne m ρ c main_v3 (by decide), W4_of_ne m ρ c main_v6 (by decide), W4_of_ne m ρ c main_v31 (by decide),
    entry0_src, entry0_dst, entry0_coef]
  rfl

/-- A [32] vector reshaped to a [1, 32] row is the vector broadcast in dimension 1: both read entry k at (0, k). -/
theorem row_of_vector (b : FVec Ideal S32 .f32) :
    shapeCast S1x32 b shapeCasts_S32_S1x32
      = broadcastInDim Cert.ReferenceIdeal.S1x32 ![1] Cert.ReferenceIdeal.Gen.bcast_S32_S1x32_1 b := by
  funext j
  rw [shapeCast_addUnit_apply ![32] b _ j]
  exact (broadcastInDim_apply ![1] _ b j (fun a => j a.succ) (fun a => by match a with | ⟨0, _⟩ => rfl)).symm

set_option maxHeartbeats 4000000 in
/-- The bias, laid out as the row the second region stages. -/
theorem entry1_row : (W5 m ρ c (Proc.devRef .tc main_v46) : FVec Ideal Cert.ReferenceIdeal.S1x32 .f32)
    = broadcastInDim Cert.ReferenceIdeal.S1x32 ![1] Cert.ReferenceIdeal.Gen.bcast_S32_S1x32_1 (m ((c : Thread nD τ).loc main_arg3)) := by
  dsimp only [W5, hostOps1]
  after_results_simp
  rw [W4_of_ne m ρ c main_arg3 (by decide), entry0_arg3]
  exact row_of_vector _

/-! ## At the second region's exit: its result array is relu (aggregate + b1) · W2, whole -/

theorem exit1_product : (W6 m ρ c (Proc.devRef .tc main_v47) : FVec Ideal Cert.ReferenceIdeal.S100000x16 .f32)
    = Cert.Gcn.linear2 (F := Ideal)
        (Cert.Gcn.biasRelu (F := Ideal)
          (Cert.Gcn.aggregate32 (F := Ideal) (Cert.Gcn.srcIdx (m ((c : Thread nD τ).loc main_arg1))) (Cert.Gcn.dstIdx (m ((c : Thread nD τ).loc main_arg1)))
            (Cert.Gcn.coefOf (Cert.Gcn.invSqrtDeg (F := Ideal) (Cert.Gcn.dstIdx (m ((c : Thread nD τ).loc main_arg1)))) (Cert.Gcn.srcIdx (m ((c : Thread nD τ).loc main_arg1))) (Cert.Gcn.dstIdx (m ((c : Thread nD τ).loc main_arg1))))
            (Cert.Gcn.linear1 (F := Ideal) (m ((c : Thread nD τ).loc main_arg0)) (m ((c : Thread nD τ).loc main_arg2))))
          (m ((c : Thread nD τ).loc main_arg3)))
        (m ((c : Thread nD τ).loc main_arg4)) := by
  refine (W6_arr m ρ c 3).trans ?_
  refine (Cert.KernelIdeal.GcnRegions.array_linear2 (V5 m ρ) c).trans ?_
  show Cert.Gcn.linear2 (F := Ideal) (Cert.Gcn.biasReluRow (F := Ideal) (W5 m ρ c (Proc.devRef .tc main_v45)) (W5 m ρ c (Proc.devRef .tc main_v46)))
      (W5 m ρ c (Proc.devRef .tc main_arg4)) = _
  rw [entry1_aggregate, entry1_row, entry1_keep_arg4, W4_of_ne m ρ c main_arg4 (by decide), entry0_arg4]
  rfl

/-! ## At the return: the result buffer -/

set_option maxHeartbeats 16000000 in
/-- THE RESULT: the last host stretch aggregates the second product and adds the output bias — the network of the six
    arguments. -/
theorem result : (W7 m ρ c (Proc.devRef .tc main_v63) : FVec Ideal Cert.ReferenceIdeal.S100000x16 .f32)
    = Cert.Gcn.gcn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  dsimp only [W7, hostOps2]
  after_results_simp
  rw [exit1_product,
    W6_of_ne m ρ c main_v3 (by decide), W6_of_ne m ρ c main_v6 (by decide), W6_of_ne m ρ c main_v31 (by decide),
    W6_of_ne m ρ c main_arg5 (by decide),
    entry1_keep_v3, entry1_keep_v6, entry1_keep_v31, entry1_keep_arg5,
    W4_of_ne m ρ c main_v3 (by decide), W4_of_ne m ρ c main_v6 (by decide), W4_of_ne m ρ c main_v31 (by decide),
    W4_of_ne m ρ c main_arg5 (by decide),
    entry0_src, entry0_dst, entry0_coef, entry0_arg5]
  rfl

end Cert.KernelIdeal.GcnFold

end
-- ==== Proof.ReferenceRun.lean ====
/-
  The reference's run, read back against the network `Cert.Gcn.gcn`.

  The reference's @main is a straight line of 105 host operations with no kernel launch, so its run is the fold of
  those operations over the launch contents: every weakly fair execution terminates, each buffer ends holding what the
  operation that writes it computes from its operands, and the argument buffers, which no operation writes, end as
  launched. Read at the result buffer the fold is the composed term of the six arguments — endpoints, degrees,
  coefficients, then (aggregate ∘ linear) twice with the bias and relu between — which is `gcn` of them.
-/
import proofs.«128285_j37847251813253_2_alg».proof.Proof.Gen.ReferenceIdeal
import proofs.«128285_j37847251813253_2_alg».proof.Proof.GcnSpec
import Idealize.ShloMosaic.Lib.StableHlo.Run

noncomputable section

namespace Cert.ReferenceIdeal.GcnRun

open Cert.ReferenceIdeal Cert.ReferenceIdeal.Gen Idealize.ShloMosaic Idealize.ShloMosaic.TcCoe Idealize.SL.Sem Idealize.ShloMosaic.StableHlo

variable {F : FTy → Type} [FloatOps F]

/-- @main's 105 operations, in order (a called function's operations stand in its call's place, spelt `TRef.…`). -/
abbrev ops : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0x3F800000#32),
    unary main_cst_2 main_v13 (broadcastInDim S100000 ![] bcast_S_S100000 : (⟨S_, .f32⟩ : BufTy).Contents (Elt F) → (⟨S100000, .f32⟩ : BufTy).Contents (Elt F)),
    binary main_v10 main_v13 main_v14 (maximumf : (⟨S100000, .f32⟩ : BufTy).Contents (Elt F) → (⟨S100000, .f32⟩ : BufTy).Contents (Elt F) → (⟨S100000, .f32⟩ : BufTy).Contents (Elt F)),
    unary main_v14 main_v15 (Host.rsqrt : (⟨S100000, .f32⟩ : BufTy).Contents (Elt F) → (⟨S100000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v15) (TRef.of (T := ⟨S100000, .f32⟩) main_call0_v1) (TRef.of (T := ⟨S100000, .f32⟩) main_v16) select,
    binary main_arg0 main_arg2 main_v17 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    nullary main_c (constantI S_ 32 0#32),
    unary main_c main_v18 (broadcastInDim S1700000 ![] bcast_S_S1700000 : (⟨S_, .i32⟩ : BufTy).Contents (Elt F) → (⟨S1700000, .i32⟩ : BufTy).Contents (Elt F)),
    binary main_v3 main_v18 main_v19 (cmpi .slt : (⟨S1700000, .i32⟩ : BufTy).Contents (Elt F) → (⟨S1700000, .i32⟩ : BufTy).Contents (Elt F) → (⟨S1700000, .i1⟩ : BufTy).Contents (Elt F)),
    nullary main_c_4 (constantI S_ 32 100000#32),
    unary main_c_4 main_v20 (broadcastInDim S1700000 ![] bcast_S_S1700000 : (⟨S_, .i32⟩ : BufTy).Contents (Elt F) → (⟨S1700000, .i32⟩ : BufTy).Contents (Elt F)),
    binary main_v3 main_v20 main_v21 (addi : (⟨S1700000, .i32⟩ : BufTy).Contents (Elt F) → (⟨S1700000, .i32⟩ : BufTy).Contents (Elt F) → (⟨S1700000, .i32⟩ : BufTy).Contents (Elt F)),
    ternary main_v19 main_v21 main_v3 main_v22 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v22 main_v23 (broadcastInDim S1700000x1 ![0] bcast_S1700000_S1700000x1_0 : (⟨S1700000, .i32⟩ : BufTy).Contents (Elt F) → (⟨S1700000x1, .i32⟩ : BufTy).Contents (Elt F)),
    binary main_v16 main_v23 main_v24 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_5 (constantI S_ 32 0#32),
    unary main_c_5 main_v25 (broadcastInDim S1700000 ![] bcast_S_S1700000 : (⟨S_, .i32⟩ : BufTy).Contents (Elt F) → (⟨S1700000, .i32⟩ : BufTy).Contents (Elt F)),
    binary main_v6 main_v25 main_v26 (cmpi .slt : (⟨S1700000, .i32⟩ : BufTy).Contents (Elt F) → (⟨S1700000, .i32⟩ : BufTy).Contents (Elt F) → (⟨S1700000, .i1⟩ : BufTy).Contents (Elt F)),
    nullary main_c_6 (constantI S_ 32 100000#32),
    unary main_c_6 main_v27 (broadcastInDim S1700000 ![] bcast_S_S1700000 : (⟨S_, .i32⟩ : BufTy).Contents (Elt F) → (⟨S1700000, .i32⟩ : BufTy).Contents (Elt F)),
    binary main_v6 main_v27 main_v28 (addi : (⟨S1700000, .i32⟩ : BufTy).Contents (Elt F) → (⟨S1700000, .i32⟩ : BufTy).Contents (Elt F) → (⟨S1700000, .i32⟩ : BufTy).Contents (Elt F)),
    ternary main_v26 main_v28 main_v6 main_v29 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v29 main_v30 (broadcastInDim S1700000x1 ![0] bcast_S1700000_S1700000x1_0 : (⟨S1700000, .i32⟩ : BufTy).Contents (Elt F) → (⟨S1700000x1, .i32⟩ : BufTy).Contents (Elt F)),
    binary main_v16 main_v30 main_v31 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v24 main_v31 main_v32 (mulf : (⟨S1700000, .f32⟩ : BufTy).Contents (Elt F) → (⟨S1700000, .f32⟩ : BufTy).Contents (Elt F) → (⟨S1700000, .f32⟩ : BufTy).Contents (Elt F)),
    nullary main_c_7 (constantI S_ 32 0#32),
    unary main_c_7 main_v33 (broadcastInDim S1700000 ![] bcast_S_S1700000 : (⟨S_, .i32⟩ : BufTy).Contents (Elt F) → (⟨S1700000, .i32⟩ : BufTy).Contents (Elt F)),
    binary main_v3 main_v33 main_v34 (cmpi .slt : (⟨S1700000, .i32⟩ : BufTy).Contents (Elt F) → (⟨S1700000, .i32⟩ : BufTy).Contents (Elt F) → (⟨S1700000, .i1⟩ : BufTy).Contents (Elt F)),
    nullary main_c_8 (constantI S_ 32 100000#32),
    unary main_c_8 main_v35 (broadcastInDim S1700000 ![] bcast_S_S1700000 : (⟨S_, .i32⟩ : BufTy).Contents (Elt F) → (⟨S1700000, .i32⟩ : BufTy).Contents (Elt F)),
    binary main_v3 main_v35 main_v36 (addi : (⟨S1700000, .i32⟩ : BufTy).Contents (Elt F) → (⟨S1700000, .i32⟩ : BufTy).Contents (Elt F) → (⟨S1700000, .i32⟩ : BufTy).Contents (Elt F)),
    ternary main_v34 main_v36 main_v3 main_v37 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v37 main_v38 (broadcastInDim S1700000x1 ![0] bcast_S1700000_S1700000x1_0 : (⟨S1700000, .i32⟩ : BufTy).Contents (Elt F) → (⟨S1700000x1, .i32⟩ : BufTy).Contents (Elt F)),
    binary main_v17 main_v38 main_v39 ((fun x i => Host.gather gather_S100000x32_S1700000x1_S1700000x32_1_0_n_n_0_1_132 x i) : (⟨S100000x32, .f32⟩ : BufTy).Contents (Elt F) → (⟨S1700000x1, .i32⟩ : BufTy).Contents (Elt F) → (⟨S1700000x32, .f32⟩ : BufTy).Contents (Elt F)),
    unary main_v32 main_v40 (broadcastInDim S1700000x1 ![0] bcast_S1700000_S1700000x1_0 : (⟨S1700000, .f32⟩ : BufTy).Contents (Elt F) → (⟨S1700000x1, .f32⟩ : BufTy).Contents (Elt F)),
    unary main_v40 main_v41 (broadcastInDim S1700000x32 ![0, 1] bcast_S1700000x1_S1700000x32_0_1 : (⟨S1700000x1, .f32⟩ : BufTy).Contents (Elt F) → (⟨S1700000x32, .f32⟩ : BufTy).Contents (Elt F)),
    binary main_v39 main_v41 main_v42 (mulf : (⟨S1700000x32, .f32⟩ : BufTy).Contents (Elt F) → (⟨S1700000x32, .f32⟩ : BufTy).Contents (Elt F) → (⟨S1700000x32, .f32⟩ : BufTy).Contents (Elt F)),
    nullary main_cst_9 (constant S_ .f32 0x00000000#32),
    unary main_cst_9 main_v43 (broadcastInDim S100000x32 ![] bcast_S_S100000x32 : (⟨S_, .f32⟩ : BufTy).Contents (Elt F) → (⟨S100000x32, .f32⟩ : BufTy).Contents (Elt F)),
    unary main_v6 main_v44 (broadcastInDim S1700000x1 ![0] bcast_S1700000_S1700000x1_0 : (⟨S1700000, .i32⟩ : BufTy).Contents (Elt F) → (⟨S1700000x1, .i32⟩ : BufTy).Contents (Elt F)),
    ternary main_v43 main_v44 main_v42 main_v45 ((fun x i u => Host.scatterAdd scatter_S100000x32_S1700000x1_S1700000x32_1_0_0_1 x i u) : (⟨S100000x32, .f32⟩ : BufTy).Contents (Elt F) → (⟨S1700000x1, .i32⟩ : BufTy).Contents (Elt F) → (⟨S1700000x32, .f32⟩ : BufTy).Contents (Elt F) → (⟨S100000x32, .f32⟩ : BufTy).Contents (Elt F)),
    unary main_arg3 main_v46 (broadcastInDim S1x32 ![1] bcast_S32_S1x32_1 : (⟨S32, .f32⟩ : BufTy).Contents (Elt F) → (⟨S1x32, .f32⟩ : BufTy).Contents (Elt F)),
    unary main_v46 main_v47 (broadcastInDim S100000x32 ![0, 1] bcast_S1x32_S100000x32_0_1 : (⟨S1x32, .f32⟩ : BufTy).Contents (Elt F) → (⟨S100000x32, .f32⟩ : BufTy).Contents (Elt F)),
    binary main_v45 main_v47 main_v48 (addf : (⟨S100000x32, .f32⟩ : BufTy).Contents (Elt F) → (⟨S100000x32, .f32⟩ : BufTy).Contents (Elt F) → (⟨S100000x32, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x32, .f32⟩) main_call1_v0) (broadcastInDim S100000x32 ![] bcast_S_S100000x32),
    TRef.binary (TRef.of (T := ⟨S100000x32, .f32⟩) main_v48) (TRef.of (T := ⟨S100000x32, .f32⟩) main_call1_v0) (TRef.of (T := ⟨S100000x32, .f32⟩) main_v49) maximumf,
    binary main_v49 main_arg4 main_v50 ((fun l r => Host.dotGeneral dot_S100000x32_S32x16_S100000x16_1_0_0_1_n_n none l r) : (⟨S100000x32, .f32⟩ : BufTy).Contents (Elt F) → (⟨S32x16, .f32⟩ : BufTy).Contents (Elt F) → (⟨S100000x16, .f32⟩ : BufTy).Contents (Elt F)),
    nullary main_c_10 (constantI S_ 32 0#32),
    unary main_c_10 main_v51 (broadcastInDim S1700000 ![] bcast_S_S1700000 : (⟨S_, .i32⟩ : BufTy).Contents (Elt F) → (⟨S1700000, .i32⟩ : BufTy).Contents (Elt F)),
    binary main_v3 main_v51 main_v52 (cmpi .slt : (⟨S1700000, .i32⟩ : BufTy).Contents (Elt F) → (⟨S1700000, .i32⟩ : BufTy).Contents (Elt F) → (⟨S1700000, .i1⟩ : BufTy).Contents (Elt F)),
    nullary main_c_11 (constantI S_ 32 100000#32),
    unary main_c_11 main_v53 (broadcastInDim S1700000 ![] bcast_S_S1700000 : (⟨S_, .i32⟩ : BufTy).Contents (Elt F) → (⟨S1700000, .i32⟩ : BufTy).Contents (Elt F)),
    binary main_v3 main_v53 main_v54 (addi : (⟨S1700000, .i32⟩ : BufTy).Contents (Elt F) → (⟨S1700000, .i32⟩ : BufTy).Contents (Elt F) → (⟨S1700000, .i32⟩ : BufTy).Contents (Elt F)),
    ternary main_v52 main_v54 main_v3 main_v55 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v55 main_v56 (broadcastInDim S1700000x1 ![0] bcast_S1700000_S1700000x1_0 : (⟨S1700000, .i32⟩ : BufTy).Contents (Elt F) → (⟨S1700000x1, .i32⟩ : BufTy).Contents (Elt F)),
    binary main_v16 main_v56 main_v57 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_12 (constantI S_ 32 0#32),
    unary main_c_12 main_v58 (broadcastInDim S1700000 ![] bcast_S_S1700000 : (⟨S_, .i32⟩ : BufTy).Contents (Elt F) → (⟨S1700000, .i32⟩ : BufTy).Contents (Elt F)),
    binary main_v6 main_v58 main_v59 (cmpi .slt : (⟨S1700000, .i32⟩ : BufTy).Contents (Elt F) → (⟨S1700000, .i32⟩ : BufTy).Contents (Elt F) → (⟨S1700000, .i1⟩ : BufTy).Contents (Elt F)),
    nullary main_c_13 (constantI S_ 32 100000#32),
    unary main_c_13 main_v60 (broadcastInDim S1700000 ![] bcast_S_S1700000 : (⟨S_, .i32⟩ : BufTy).Contents (Elt F) → (⟨S1700000, .i32⟩ : BufTy).Contents (Elt F)),
    binary main_v6 main_v60 main_v61 (addi : (⟨S1700000, .i32⟩ : BufTy).Contents (Elt F) → (⟨S1700000, .i32⟩ : BufTy).Contents (Elt F) → (⟨S1700000, .i32⟩ : BufTy).Contents (Elt F)),
    ternary main_v59 main_v61 main_v6 main_v62 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v62 main_v63 (broadcastInDim S1700000x1 ![0] bcast_S1700000_S1700000x1_0 : (⟨S1700000, .i32⟩ : BufTy).Contents (Elt F) → (⟨S1700000x1, .i32⟩ : BufTy).Contents (Elt F)),
    binary main_v16 main_v63 main_v64 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v57 main_v64 main_v65 (mulf : (⟨S1700000, .f32⟩ : BufTy).Contents (Elt F) → (⟨S1700000, .f32⟩ : BufTy).Contents (Elt F) → (⟨S1700000, .f32⟩ : BufTy).Contents (Elt F)),
    nullary main_c_14 (constantI S_ 32 0#32),
    unary main_c_14 main_v66 (broadcastInDim S1700000 ![] bcast_S_S1700000 : (⟨S_, .i32⟩ : BufTy).Contents (Elt F) → (⟨S1700000, .i32⟩ : BufTy).Contents (Elt F)),
    binary main_v3 main_v66 main_v67 (cmpi .slt : (⟨S1700000, .i32⟩ : BufTy).Contents (Elt F) → (⟨S1700000, .i32⟩ : BufTy).Contents (Elt F) → (⟨S1700000, .i1⟩ : BufTy).Contents (Elt F)),
    nullary main_c_15 (constantI S_ 32 100000#32),
    unary main_c_15 main_v68 (broadcastInDim S1700000 ![] bcast_S_S1700000 : (⟨S_, .i32⟩ : BufTy).Contents (Elt F) → (⟨S1700000, .i32⟩ : BufTy).Contents (Elt F)),
    binary main_v3 main_v68 main_v69 (addi : (⟨S1700000, .i32⟩ : BufTy).Contents (Elt F) → (⟨S1700000, .i32⟩ : BufTy).Contents (Elt F) → (⟨S1700000, .i32⟩ : BufTy).Contents (Elt F)),
    ternary main_v67 main_v69 main_v3 main_v70 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v70 main_v71 (broadcastInDim S1700000x1 ![0] bcast_S1700000_S1700000x1_0 : (⟨S1700000, .i32⟩ : BufTy).Contents (Elt F) → (⟨S1700000x1, .i32⟩ : BufTy).Contents (Elt F)),
    binary main_v50 main_v71 main_v72 ((fun x i => Host.gather gather_S100000x16_S1700000x1_S1700000x16_1_0_n_n_0_1_116 x i) : (⟨S100000x16, .f32⟩ : BufTy).Contents (Elt F) → (⟨S1700000x1, .i32⟩ : BufTy).Contents (Elt F) → (⟨S1700000x16, .f32⟩ : BufTy).Contents (Elt F)),
    unary main_v65 main_v73 (broadcastInDim S1700000x1 ![0] bcast_S1700000_S1700000x1_0 : (⟨S1700000, .f32⟩ : BufTy).Contents (Elt F) → (⟨S1700000x1, .f32⟩ : BufTy).Contents (Elt F)),
    unary main_v73 main_v74 (broadcastInDim S1700000x16 ![0, 1] bcast_S1700000x1_S1700000x16_0_1 : (⟨S1700000x1, .f32⟩ : BufTy).Contents (Elt F) → (⟨S1700000x16, .f32⟩ : BufTy).Contents (Elt F)),
    binary main_v72 main_v74 main_v75 (mulf : (⟨S1700000x16, .f32⟩ : BufTy).Contents (Elt F) → (⟨S1700000x16, .f32⟩ : BufTy).Contents (Elt F) → (⟨S1700000x16, .f32⟩ : BufTy).Contents (Elt F)),
    nullary main_cst_16 (constant S_ .f32 0x00000000#32),
    unary main_cst_16 main_v76 (broadcastInDim S100000x16 ![] bcast_S_S100000x16 : (⟨S_, .f32⟩ : BufTy).Contents (Elt F) → (⟨S100000x16, .f32⟩ : BufTy).Contents (Elt F)),
    unary main_v6 main_v77 (broadcastInDim S1700000x1 ![0] bcast_S1700000_S1700000x1_0 : (⟨S1700000, .i32⟩ : BufTy).Contents (Elt F) → (⟨S1700000x1, .i32⟩ : BufTy).Contents (Elt F)),
    ternary main_v76 main_v77 main_v75 main_v78 ((fun x i u => Host.scatterAdd scatter_S100000x16_S1700000x1_S1700000x16_1_0_0_1 x i u) : (⟨S100000x16, .f32⟩ : BufTy).Contents (Elt F) → (⟨S1700000x1, .i32⟩ : BufTy).Contents (Elt F) → (⟨S1700000x16, .f32⟩ : BufTy).Contents (Elt F) → (⟨S100000x16, .f32⟩ : BufTy).Contents (Elt F)),
    unary main_arg5 main_v79 (broadcastInDim S1x16 ![1] bcast_S16_S1x16_1 : (⟨S16, .f32⟩ : BufTy).Contents (Elt F) → (⟨S1x16, .f32⟩ : BufTy).Contents (Elt F)),
    unary main_v79 main_v80 (broadcastInDim S100000x16 ![0, 1] bcast_S1x16_S100000x16_0_1 : (⟨S1x16, .f32⟩ : BufTy).Contents (Elt F) → (⟨S100000x16, .f32⟩ : BufTy).Contents (Elt F)),
    binary main_v78 main_v80 main_v81 (addf : (⟨S100000x16, .f32⟩ : BufTy).Contents (Elt F) → (⟨S100000x16, .f32⟩ : BufTy).Contents (Elt F) → (⟨S100000x16, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩

set_option maxRecDepth 8192 in
set_option maxHeartbeats 40000000 in
/-- The result buffer after the line: the network of the six arguments' launch contents. The fold is rewritten one
    operation at a time down to the arguments (inside a concatenation's list of parts too), and what is left is the
    network's own tree of operations. -/
theorem result (m : (ℓ : Loc nD τ sig) → Buf (Elt F) ℓ) (c : Dev nD) :
    after (ops (F := F)) (launchContents m c) (Proc.devRef .tc main_v81)
      = Cert.Gcn.gcn (F := F) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold ops
  after_results_simp
  -- the parts of a concatenation sit in a list of (shape, array) pairs, where the one-pass rewriting does not reach:
  -- there each operation's result is rewritten at its own buffer, and at any other buffer to what was there
  repeat (first
    | rw [nullary_result] | rw [unary_result] | rw [binary_result] | rw [reshape_result]
    | (rw [nullary_result_ne]; rotate_left; decide)
    | (rw [unary_result_ne]; rotate_left; decide)
    | (rw [binary_result_ne]; rotate_left; decide)
    | (rw [reshape_result_ne]; rotate_left; decide))
  rfl

set_option maxRecDepth 8192 in
set_option maxHeartbeats 40000000 in
/-- On every device, from any memory with zero counters: every weakly fair execution of the reference's @main
    terminates with the result at the network of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v81)
        = Cert.Gcn.gcn (F := F) (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v81).trans (result m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.GcnRun

end
-- ==== Proof.lean ====
/-
  A two-layer graph convolution, fused kernels against plain array code: both compute, on the extended reals,

      out = agg (relu (agg (x · W1) + b1) · W2) + b2,     agg h (v, j) = Σ_{e : dst e = v} h (src e, j) · coef e,

  over 100000 nodes and 1700000 edges (the 1600000 given ones and one self-loop per node), with the symmetric
  normalisation coef e = isd (src e) · isd (dst e), isd v = 1/√(max (deg v, 1)) where deg v > 0 and 0 elsewhere.

  The kernel's program computes the two matrix products in two regions of ten row blocks each — the second fused with
  the bias and the relu — and everything else (endpoints, degrees, coefficients, gathers, scatter-adds, the output bias)
  by the same host operations the reference uses. So the claim reduces to two facts about a matrix product: a row block
  of a product is the product of the row block (an entry reads one row of the left factor), and on the extended reals a
  product accumulated from an exact zero is the plain sum Σ_k l (p, k) · r (k, q), on the TensorCore and on the host
  alike. A change of float format is the identity there, so the kernel's narrowing of its factors changes nothing. No
  law used needs finiteness: nothing is distributed or cancelled, the two sides are the same sums of the same products.

    · Proof/GcnSpec.lean       the network as one function of the six arguments, stage by stage
    · Proof/LibProductAt.lean  the indices a plain two-axis product reads: (p, k) and (k, q)
    · Proof/MatmulAt.lean      a product read at an index: the sum over the shared axis
    · Proof/Linear1.lean       the first region's array is x · W1, whole
    · Proof/Linear2.lean       the second region's array is relu (a + b1) · W2, whole
    · Proof/KernelRun.lean     the kernel's run with its result buffer named
    · Proof/Fold.lean          that buffer's contents, read back through the segment boundaries: the network
    · Proof/ReferenceRun.lean  the reference's run: its result is the network

  The three frames: the kernel's two (as printed, and read on the extended reals) are the generated frame certificates;
  the reference's is its run with the result dropped. The kernel's idealization rewrote nothing, so `preserves` is `True`.
-/
import proofs.«128285_j37847251813253_2_alg».proof.Defs
import proofs.«128285_j37847251813253_2_alg».proof.Proof.Gen.Kernel
import proofs.«128285_j37847251813253_2_alg».proof.Proof.Gen.Kernel.Skeleton
import proofs.«128285_j37847251813253_2_alg».proof.Proof.Gen.Kernel.Launch
import proofs.«128285_j37847251813253_2_alg».proof.Proof.Gen.Kernel.Points
import proofs.«128285_j37847251813253_2_alg».proof.Proof.Gen.Kernel.Frame
import proofs.«128285_j37847251813253_2_alg».proof.Proof.Gen.KernelIdeal
import proofs.«128285_j37847251813253_2_alg».proof.Proof.Gen.KernelIdeal.Skeleton
import proofs.«128285_j37847251813253_2_alg».proof.Proof.Gen.KernelIdeal.Launch
import proofs.«128285_j37847251813253_2_alg».proof.Proof.Gen.KernelIdeal.Points
import proofs.«128285_j37847251813253_2_alg».proof.Proof.Gen.KernelIdeal.Frame
import proofs.«128285_j37847251813253_2_alg».proof.Proof.Gen.ReferenceIdeal
import proofs.«128285_j37847251813253_2_alg».proof.Proof.Gen.Pre_finite_inputs
import proofs.«128285_j37847251813253_2_alg».proof.Proof.KernelRun
import proofs.«128285_j37847251813253_2_alg».proof.Proof.Fold
import proofs.«128285_j37847251813253_2_alg».proof.Proof.ReferenceRun
import Idealize.ShloMosaic.Adequacy
import Idealize.ShloMosaic.Init

noncomputable section

namespace Cert.Proof

open Idealize.ShloMosaic Idealize.SL.Sem

/-- Both programs, run from memories that agree on the arguments, end with the network of the arguments in their result
    buffers: the kernel's by the fold through its segments, the reference's by its straight-line run. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Gcn.gcn (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.GcnFold.result m ρ c), (h c).2⟩)
      (Cert.KernelIdeal.GcnRun.run (F := Ideal) m ρ)
  · refine (θ_run Cert.ReferenceIdeal.defs _ _).mono (fun _ h c => ⟨(h c).1.trans ?_, (h c).2⟩)
      (Cert.ReferenceIdeal.GcnRun.run (F := Ideal) m' ρ')
    rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.GcnRun.run (F := Ideal) m ρ),
  trivial,
  algebraic⟩

end Cert.Proof

end
